-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S2x800000 : Shape := ⟨2, ![2, 800000]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S1 .f32) (main_arg6 : FVec F S800000 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S800000 .f32 := Host.absf main_arg6
  let main_cst_8 : FVec F S_ .f32 := constant S_ .f32 0x7F800000#32
  let main_v25 : FVec F S800000 .f32 := broadcastInDim S800000 ![] bcast_S_S800000 main_cst_8
  let main_v26 : IVec S800000 1 := cmpf .olt main_v24 main_v25
  let main_c_9 : IVec S_ 1 := constantI S_ 1 1#1
  let main_v27 : IVec S_ 1 := (fun x v => Host.reduce IntOp.andi x v reducesTo_S800000_S_d0 h_S_) main_v26 main_c_9
  let main_v28 : IVec S_ 1 := andi main_v23 main_v27
  main_v28

def fn {F : FTy → Type} [FloatOps F] (main_arg0 : FVec F S50000x256 .f32) (main_arg1 : FVec F S128x256 .f32) (main_arg2 : FVec F S128 .f32) (main_arg3 : FVec F S1x128 .f32) (main_arg4 : FVec F S1 .f32) (main_arg5 : IVec S2x800000 32) (main_arg6 : FVec F S800000 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_arg6 main_v13 main_v16
-- ==== Kernel.lean ====
abbrev S50000x256 : Shape := ⟨2, ![50000, 256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S2x800000 : Shape := ⟨2, ![2, 800000]⟩
abbrev S800000 : Shape := ⟨1, ![800000]⟩
abbrev S256x128 : Shape := ⟨2, ![256, 128]⟩
abbrev S50000x1 : Shape := ⟨2, ![50000, 1]⟩
abbrev S5000x256 : Shape := ⟨2, ![5000, 256]⟩
abbrev S5000x1 : Shape := ⟨2, ![5000, 1]⟩
abbrev S5000x128 : Shape := ⟨2, ![5000, 128]⟩
abbrev S5000 : Shape := ⟨1, ![5000]⟩
abbrev S1x800000 : Shape := ⟨2, ![1, 800000]⟩
abbrev S50000 : Shape := ⟨1, ![50000]⟩
abbrev S_ : Shape := ⟨0, ![]⟩
abbrev S800000x1 : Shape := ⟨2, ![800000, 1]⟩

abbrev nBuf : Space → Nat
  | .hbm => 38
  | .vmem => 7
  | .smem => 0
  | _ => 0

abbrev bufTy : (tb : Table) → Fin (tcTables nBuf tb) → BufTy
  | .hbm, ⟨0, _⟩ => ⟨S50000x256, .f32⟩
  | .hbm, ⟨1, _⟩ => ⟨S128x256, .f32⟩
  | .hbm, ⟨2, _⟩ => ⟨S128, .f32⟩
  | .hbm, ⟨3, _⟩ => ⟨S1x128, .f32⟩
  | .hbm, ⟨4, _⟩ => ⟨S1, .f32⟩
  | .hbm, ⟨5, _⟩ => ⟨S2x800000, .i32⟩
  | .hbm, ⟨6, _⟩ => ⟨S800000, .f32⟩
  | .hbm, ⟨7, _⟩ => ⟨S256x128, .f32⟩
  | .hbm, ⟨8, _⟩ => ⟨S1x128, .f32⟩
  | .hbm, ⟨9, _⟩ => ⟨S50000x1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S1x128, .f32⟩
  | .local _ .vmem, ⟨5, _⟩ => ⟨S5000x1, .f32⟩
  | .local _ .vmem, ⟨6, _⟩ => ⟨S5000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x256_S256x128_1_0 : S128x256.Transposes [1, 0] S256x128
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000x1_S50000 : S50000x1.ShapeCasts S50000
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  shapeCasts_S1_S_ : S1.ShapeCasts S_
  reducesTo_S50000_S_d0 : S50000.ReducesTo [0] S_
  h_S_ : 0 < S_.numel
  shapeCasts_S_S1 : S_.ShapeCasts S1
  dot_S5000x256_S256x128_S5000x128_1_0_0_1_n_n_wf : DotDims.WF S5000x256 S256x128 S5000x128 [1] [0] [0] [1] [] []
  gather_S50000_S800000x1_S800000_n_0_n_n_0_1_1_wf : GatherDims.WF S50000 S800000x1 S800000 [] [0] [] [0] [] 1 ![1]
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S50000x1.size a
  hwx0_4 : ∀ i : grid0.Coords, EltTy.bits .f32 = 32 ∨ (Rect.block (s := S50000x1) S5000x1.size (cc0_transform_4 i) (hinb0_4 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S5000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x256 : Shape := ⟨2, ![50000, 256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S2x800000 : Shape := ⟨2, ![2, 800000]⟩
abbrev S800000 : Shape := ⟨1, ![800000]⟩
abbrev S256x128 : Shape := ⟨2, ![256, 128]⟩
abbrev S50000x128 : Shape := ⟨2, ![50000, 128]⟩
abbrev S1x800000 : Shape := ⟨2, ![1, 800000]⟩
abbrev S800000x1 : Shape := ⟨2, ![800000, 1]⟩
abbrev S_ : Shape := ⟨0, ![]⟩
abbrev S800000x128 : Shape := ⟨2, ![800000, 128]⟩
abbrev S128x1 : Shape := ⟨2, ![128, 1]⟩
abbrev S50000x1 : Shape := ⟨2, ![50000, 1]⟩
abbrev S1x1 : Shape := ⟨2, ![1, 1]⟩

abbrev nBuf : Space → Nat
  | .hbm => 43
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S128x256, .f32⟩
  | .hbm, ⟨2, _⟩ => ⟨S128, .f32⟩
  | .hbm, ⟨3, _⟩ => ⟨S1x128, .f32⟩
  | .hbm, ⟨4, _⟩ => ⟨S1, .f32⟩
  | .hbm, ⟨5, _⟩ => ⟨S2x800000, .i32⟩
  | .hbm, ⟨6, _⟩ => ⟨S800000, .f32⟩
  | .hbm, ⟨7, _⟩ => ⟨S256x128, .f32⟩
  | .hbm, ⟨8, _⟩ => ⟨S50000x128, .f32⟩
  | .hbm, ⟨9, _⟩ => ⟨S1x128, .f32⟩
  | .hbm, ⟨10, _⟩ => ⟨S50000x128, .f32⟩
  | .hbm, ⟨11, _⟩ => ⟨S50000x128, .f32⟩
  | .hbm, ⟨12, _⟩ => ⟨S50000x128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S800000x1, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S800000x128, .f32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S128x1, .f32⟩
  | .hbm, ⟨34, _⟩ => ⟨S50000x1, .f32⟩
  | .hbm, ⟨35, _⟩ => ⟨S1x1, .f32⟩
  | .hbm, ⟨36, _⟩ => ⟨S50000x1, .f32⟩
  | .hbm, ⟨37, _⟩ => ⟨S50000x1, .f32⟩
  | .hbm, ⟨38, _⟩ => ⟨S50000x1, .f32⟩
  | .hbm, ⟨39, _⟩ => ⟨S50000x1, .f32⟩
  | .hbm, ⟨40, _⟩ => ⟨S_, .f32⟩
  | .hbm, ⟨41, _⟩ => ⟨S1, .f32⟩
  | .hbm, ⟨42, _⟩ => ⟨S1, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S1_d0 : S50000x1.ReducesTo [0] S1
  h_S_ : 0 < S_.numel
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Spec.lean ====
/-
  The mathematics both programs compute, written once over the extended reals, and the law that joins them.

  A graph layer on N = 50000 nodes with 256 input features, 128 hidden features and E = 800000 weighted edges.
  Node n's hidden row is  hid n d = sin (Σ_k x(n,k) · W1(d,k) + b1(d)).  Edge e carries the hidden row of its
  source node  src e  (the second row of the edge list, a negative number wrapped by N, then clamped into [0, N−1])
  to its target node (the first row of the edge list, read signed; an edge whose target is outside [0, N) is dropped),
  scaled by the edge weight  ew e.  The output at node r is  sin (agg r + b2)  where  agg r  contracts the aggregated
  hidden row with W2, and the result is the Euclidean norm of the output over the nodes.

  The two programs differ only in where they contract with W2: one contracts every node's hidden row first
  (proj n = Σ_d hid n d · W2 d) and aggregates the scalars over the edges, the other aggregates the hidden rows over
  the edges and contracts the aggregate.  Over the reals the two agree because a finite sum of products distributes;
  over the extended reals that needs every factor to be a real number, which holds when the inputs are finite:
  the sine of a real is a real.
-/
import Idealize.ShloMosaic.PureOps.Ideal
import Idealize.ShloMosaic.Lib.ValueIdx

noncomputable section

open scoped BigOperators

namespace Cert.Spec

open Idealize.ShloMosaic Idealize.ShloMosaic.ValueIdx

/-- The inputs, as arrays over the extended reals (the edge list over 32-bit words). -/
structure Inputs where
  x : (⟨2, ![50000, 256]⟩ : Shape).Idx → EReal
  W1 : (⟨2, ![128, 256]⟩ : Shape).Idx → EReal
  b1 : (⟨1, ![128]⟩ : Shape).Idx → EReal
  W2 : (⟨2, ![1, 128]⟩ : Shape).Idx → EReal
  b2 : (⟨1, ![1]⟩ : Shape).Idx → EReal
  ei : (⟨2, ![2, 800000]⟩ : Shape).Idx → BitVec 32
  ew : (⟨1, ![800000]⟩ : Shape).Idx → EReal

variable (I : Inputs)

/-- Node `n`'s hidden feature `d`: the sine of the affine map of its input row. -/
def hid (n : Fin 50000) (d : Fin 128) : EReal :=
  Ideal.sin ((∑ k : Fin 256, I.x (ix2 n k) * I.W1 (ix2 d k)) + I.b1 (ix1 d))

/-- Node `n`'s hidden row contracted with the second layer's weights. -/
def proj (n : Fin 50000) : EReal := ∑ d : Fin 128, hid I n d * I.W2 (ix2 0 d)

/-- Edge `e`'s source node number as a word: the second row of the edge list, a negative number wrapped by N. -/
def srcWord (e : Fin 800000) : BitVec 32 :=
  Scalar.select (IntOp.cmpi .slt (I.ei (ix2 1 e)) 0#32) (IntOp.addi (I.ei (ix2 1 e)) 50000#32) (I.ei (ix2 1 e))

/-- Edge `e`'s source node: the word read signed and clamped into [0, N − 1]. -/
def src (e : Fin 800000) : Fin 50000 := ⟨min (srcWord I e).toInt.toNat (50000 - 1), by omega⟩

/-- The edges whose target node, read signed off the first row of the edge list, is `r`. -/
def into (r : Fin 50000) : Finset (Fin 800000) :=
  Finset.univ.filter (fun e : Fin 800000 => (I.ei (ix2 0 e)).toInt = (r.val : Int))

/-- Contract first, then aggregate the scalars over the edges into `r`. -/
def aggScalar (r : Fin 50000) : EReal := ∑ e ∈ into I r, I.ew (ix1 e) * proj I (src I e)

/-- Aggregate the hidden rows over the edges into `r`, then contract the aggregate. -/
def aggRow (r : Fin 50000) : EReal :=
  ∑ d : Fin 128, (∑ e ∈ into I r, I.ew (ix1 e) * hid I (src I e) d) * I.W2 (ix2 0 d)

/-- The norm over the nodes of the output layer applied to an aggregate. -/
def normOf (agg : Fin 50000 → EReal) : EReal :=
  Ideal.sqrt (∑ r : Fin 50000, Ideal.sin (agg r + I.b2 (ix1 0)) * Ideal.sin (agg r + I.b2 (ix1 0)))

/-- Every float input is a real number. -/
structure Finite : Prop where
  x : ∀ i, ∃ r : ℝ, I.x i = (r : EReal)
  W1 : ∀ i, ∃ r : ℝ, I.W1 i = (r : EReal)
  b1 : ∀ i, ∃ r : ℝ, I.b1 i = (r : EReal)
  W2 : ∀ i, ∃ r : ℝ, I.W2 i = (r : EReal)
  ew : ∀ i, ∃ r : ℝ, I.ew i = (r : EReal)

end Cert.Spec

end
-- ==== Proof.Law.lean ====
/-
  The law that joins the two programs: contracting with the second layer's weights before or after the
  aggregation over the edges gives the same number, when every input is a real number.

  Over the reals this is the distributivity of a finite sum of products,
      Σ_e w_e · (Σ_d h(e,d) · v_d)  =  Σ_d (Σ_e w_e · h(e,d)) · v_d .
  Over the extended reals multiplication does not distribute over addition in general (⊤ + ⊥ = ⊥), so the
  identity is proved for coercions of reals: the coercion ℝ → EReal commutes with products and with finite sums,
  both sides are therefore the coercion of a real sum, and the two real sums are equal.  The hidden features are
  reals because the sine of a real is a real (the sine of an infinity is ⊥, which is why finiteness is needed).
-/
import proofs.«137217_j48069273977167_2_alg».proof.Proof.Spec

noncomputable section

open scoped BigOperators

namespace Cert.Spec

open Idealize.ShloMosaic Idealize.ShloMosaic.ValueIdx

/-- The coercion ℝ → EReal of a finite sum is the sum of the coercions. -/
theorem coe_finset_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Distributivity over the reals: a weighted sum of contractions is the contraction of the weighted sums. -/
theorem real_sum_mul_sum_comm {ι δ : Type} [Fintype δ] (S : Finset ι) (w : ι → ℝ) (g : ι → δ → ℝ)
    (v : δ → ℝ) :
    (∑ e ∈ S, w e * ∑ d, g e d * v d) = ∑ d, (∑ e ∈ S, w e * g e d) * v d := by
  simp only [Finset.mul_sum, Finset.sum_mul]
  rw [Finset.sum_comm]
  refine Finset.sum_congr rfl (fun d _ => Finset.sum_congr rfl (fun e _ => ?_))
  ring

/-- The same distributivity over the extended reals, for factors that are coercions of reals. -/
theorem sum_mul_sum_comm {ι δ : Type} [Fintype δ] (S : Finset ι) (w : ι → ℝ) (g : ι → δ → ℝ)
    (v : δ → ℝ) :
    (∑ e ∈ S, ((w e : ℝ) : EReal) * ∑ d, ((g e d : ℝ) : EReal) * ((v d : ℝ) : EReal))
      = ∑ d, (∑ e ∈ S, ((w e : ℝ) : EReal) * ((g e d : ℝ) : EReal)) * ((v d : ℝ) : EReal) := by
  -- the left side is the coercion of the real left side
  have hL : (∑ e ∈ S, ((w e : ℝ) : EReal) * ∑ d, ((g e d : ℝ) : EReal) * ((v d : ℝ) : EReal))
      = ((∑ e ∈ S, w e * ∑ d, g e d * v d : ℝ) : EReal) := by
    rw [coe_finset_sum]
    refine Finset.sum_congr rfl (fun e _ => ?_)
    rw [EReal.coe_mul, coe_finset_sum]
    simp only [EReal.coe_mul]
  -- the right side is the coercion of the real right side
  have hR : (∑ d, (∑ e ∈ S, ((w e : ℝ) : EReal) * ((g e d : ℝ) : EReal)) * ((v d : ℝ) : EReal))
      = ((∑ d, (∑ e ∈ S, w e * g e d) * v d : ℝ) : EReal) := by
    rw [coe_finset_sum]
    refine Finset.sum_congr rfl (fun d _ => ?_)
    rw [EReal.coe_mul, coe_finset_sum]
    simp only [EReal.coe_mul]
  rw [hL, hR, real_sum_mul_sum_comm]

/-- With real inputs every hidden feature is a real number: the affine map of reals is a real, and the sine
    of a real is a real. -/
theorem hid_real (I : Inputs) (hf : Finite I) (n : Fin 50000) (d : Fin 128) :
    ∃ r : ℝ, hid I n d = (r : EReal) := by
  choose xr hx using hf.x
  choose w1r hw1 using hf.W1
  choose b1r hb1 using hf.b1
  refine ⟨Real.sin ((∑ k : Fin 256, xr (ix2 n k) * w1r (ix2 d k)) + b1r (ix1 d)), ?_⟩
  have harg : (∑ k : Fin 256, I.x (ix2 n k) * I.W1 (ix2 d k)) + I.b1 (ix1 d)
      = (((∑ k : Fin 256, xr (ix2 n k) * w1r (ix2 d k)) + b1r (ix1 d) : ℝ) : EReal) := by
    rw [EReal.coe_add, coe_finset_sum, hb1]
    congr 1
    refine Finset.sum_congr rfl (fun k _ => ?_)
    rw [hx, hw1, EReal.coe_mul]
  unfold hid
  rw [harg, Ideal.sin_coe]

/-- Contracting before or after the aggregation over the edges into a node gives the same number. -/
theorem aggScalar_eq_aggRow (I : Inputs) (hf : Finite I) (r : Fin 50000) :
    aggScalar I r = aggRow I r := by
  choose hr hh using hid_real I hf
  choose w2r hw2 using hf.W2
  choose ewr hew using hf.ew
  have hS : aggScalar I r
      = ∑ e ∈ into I r, ((ewr (ix1 e) : ℝ) : EReal)
          * ∑ d : Fin 128, ((hr (src I e) d : ℝ) : EReal) * ((w2r (ix2 0 d) : ℝ) : EReal) := by
    unfold aggScalar proj
    refine Finset.sum_congr rfl (fun e _ => ?_)
    rw [hew]
    refine congrArg (fun t => ((ewr (ix1 e) : ℝ) : EReal) * t) (Finset.sum_congr rfl (fun d _ => ?_))
    rw [hh, hw2]
  have hRow : aggRow I r
      = ∑ d : Fin 128, (∑ e ∈ into I r, ((ewr (ix1 e) : ℝ) : EReal) * ((hr (src I e) d : ℝ) : EReal))
          * ((w2r (ix2 0 d) : ℝ) : EReal) := by
    unfold aggRow
    refine Finset.sum_congr rfl (fun d _ => ?_)
    rw [hw2]
    refine congrArg (fun t => t * ((w2r (ix2 0 d) : ℝ) : EReal)) (Finset.sum_congr rfl (fun e _ => ?_))
    rw [hew, hh]
  rw [hS, hRow]
  exact sum_mul_sum_comm (into I r) (fun e => ewr (ix1 e)) (fun e d => hr (src I e) d)
    (fun d => w2r (ix2 0 d))

/-- Hence the two programs' norms agree. -/
theorem normOf_agg (I : Inputs) (hf : Finite I) : normOf I (aggScalar I) = normOf I (aggRow I) :=
  congrArg (normOf I) (funext (aggScalar_eq_aggRow I hf))

end Cert.Spec

end
-- ==== Proof.LibFiniteAll.lean ====
/-
  `jnp.all(|x| < inf)` read back at the extended reals: when the reduction by `and` of the comparisons of every entry's
  absolute value with the +infinity constant comes out true, every entry of the array is a real number (neither infinity:
  the absolute value of either infinity is +infinity, which is not below itself). Nothing here depends on a program.
-/
import Idealize.ShloMosaic.Lib.ReduceAll
import Idealize.ShloMosaic.Lib.ValueIdx
import Idealize.ShloMosaic.PureOps.Ideal.Laws

noncomputable section

namespace FiniteAll

open Idealize.ShloMosaic

/-- The f32 word with all exponent bits set and no fraction is +infinity. -/
theorem inf_f32 : Ideal.ofBits .f32 0x7F800000#32 = ⊤ := by simp [Ideal.ofBits, Ideal.ieee]

/-- An extended real whose absolute value is below +infinity is a real number. -/
theorem real_of_abs_lt_top (x : EReal) (h : max x (-x) < ⊤) : ∃ r : ℝ, x = (r : EReal) := by
  induction x using EReal.rec with
  | bot => simp at h
  | coe r => exact ⟨r, rfl⟩
  | top => simp at h

instance : Subsingleton (⟨0, ![]⟩ : Shape).Idx := ⟨fun a b => funext fun d => d.elim0⟩

/-- If the `and` over all entries of `|x| < +inf` is true, every entry of `x` is a real number. -/
theorem all_real {s : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32)))
          (constantI ⟨0, ![]⟩ 1 1#1) h hu j = 1#1) (i : s.Idx) : ∃ r : ℝ, x i = (r : EReal) := by
  have hi := Host.reduce_andi_all _ _ h hu j e i
  have hi' : Ideal.cmp .olt (max (x i) (-(x i))) (Ideal.ofBits .f32 0x7F800000#32) = 1#1 := hi
  rw [inf_f32] at hi'
  unfold Ideal.cmp at hi'
  refine real_of_abs_lt_top (x i) ?_
  by_contra hc
  simp [hc] at hi'

end FiniteAll

end
-- ==== Proof.Finite.lean ====
/-
  From the precondition to "every floating-point input is a real number".

The precondition is the conjunction, by the one-bit `and`, of six statements `all(|x| < +inf)`, one for each
floating-point input array (the integer array of edges is not constrained).  The conjunction is nested to the left:
`((((a0 ∧ a1) ∧ a2) ∧ a3) ∧ a4) ∧ a6`.  A one-bit `and` is `1` exactly when both its operands are, so when the
whole conjunction is `1` each of the six statements is `1`; and when the `and` over all entries of `|x| < +inf` is `1`,
every entry of `x` is neither infinity, that is, a real number.
-/
import Idealize.ShloMosaic.Lib.Affine
import Idealize.ShloMosaic.Lib.ValueIdx
import proofs.«137217_j48069273977167_2_alg».proof.Pre_finite_inputs
import proofs.«137217_j48069273977167_2_alg».proof.Proof.LibFiniteAll

noncomputable section

namespace Cert.Finite

open Idealize.ShloMosaic Cert.Pre_finite_inputs

/-- An elementwise one-bit `and` of two arrays is `1` at an index exactly when both arrays are `1` there. -/
theorem andi_apply_eq_one {s : Shape} (a b : IVec s 1) (i : s.Idx) :
    andi a b i = 1#1 ↔ a i = 1#1 ∧ b i = 1#1 := IntOp.andi_eq_one

variable [Cert.Pre_finite_inputs.Facts]

/-- When the precondition holds, every entry of each of the six floating-point inputs is a real number. -/
theorem inputs_real (x0 : FVec Ideal S50000x256 .f32) (x1 : FVec Ideal S128x256 .f32) (x2 : FVec Ideal S128 .f32)
    (x3 : FVec Ideal S1x128 .f32) (x4 : FVec Ideal S1 .f32) (x5 : IVec S2x800000 32) (x6 : FVec Ideal S800000 .f32)
    (h : Cert.Pre_finite_inputs.fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x6 i = (r : EReal)) := by
  have h0 := congrFun h ValueIdx.ix0
  dsimp only [Cert.Pre_finite_inputs.fn, Cert.Pre_finite_inputs.fn_part1] at h0
  obtain ⟨h1, e6⟩ := (andi_apply_eq_one _ _ _).1 h0
  obtain ⟨h2, e4⟩ := (andi_apply_eq_one _ _ _).1 h1
  obtain ⟨h3, e3⟩ := (andi_apply_eq_one _ _ _).1 h2
  obtain ⟨h4, e2⟩ := (andi_apply_eq_one _ _ _).1 h3
  obtain ⟨e0, e1⟩ := (andi_apply_eq_one _ _ _).1 h4
  exact ⟨FiniteAll.all_real x0 _ _ _ _ e0, FiniteAll.all_real x1 _ _ _ _ e1, FiniteAll.all_real x2 _ _ _ _ e2,
    FiniteAll.all_real x3 _ _ _ _ e3, FiniteAll.all_real x4 _ _ _ _ e4, FiniteAll.all_real x6 _ _ _ _ e6⟩

end Cert.Finite

end
-- ==== Proof.LibRows.lean ====
/-
  Row gather and row scatter-add of a matrix, read at an index.

`x[idx]` of a matrix `x : [N, W]` at a column of row numbers `idx : [E, 1]` is StableHLO's gather with offset axis 1,
collapsed axis 0, start index map [0], index vector axis 1 and slices `[1, W]`: result element `(e, k)` is `x` at row
`idx[e, 0]` (read signed and clamped into `[0, N − 1]`), lane `k`.  The accumulating scatter with update window axis 1,
inserted window axis 0, scatter-to-operand map [0] and index vector axis 1 sends update element `(e, k)` to operand
element `(idx[e, 0], k)` when that row number, read signed and NOT clamped, lies in `[0, N)`, and drops it otherwise;
over the extended reals the scattered array at `(i, j)` is therefore the operand's element plus the sum, over the
update rows `e` whose row number is `i`, of the update's element `(e, j)`.
-/
import Idealize.ShloMosaic.PureOps.Ideal
import Idealize.ShloMosaic.Lib.ValueIdx

noncomputable section

open scoped BigOperators

namespace Cert.LibRows

open Idealize.ShloMosaic Idealize.ShloMosaic.ValueIdx

/-! ## The gather of rows -/

section Gather
variable {α : Type}

/-- The dimension numbers of a row gather: operand `[N, W]`, row numbers `[E, 1]`, result `[E, W]`. -/
abbrev rowGatherDims (N W E : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The row the gather reads for result row `e`: the row number `idx[e, 0]`, signed, clamped into `[0, N − 1]`. -/
def gatherRow {N E w : Nat} (hN : 0 < N) (idx : IVec ⟨2, ![E, 1]⟩ w) (e : Fin E) : Fin N :=
  ⟨min (idx (ix2 e 0)).toInt.toNat (N - 1), by omega⟩

/-- THE ROW GATHER READ AT `(e, k)`: the operand at the clamped row, lane `k`. -/
theorem gather_rows_apply {N W E w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (rowGatherDims N W E wf) x idx (ix2 e k) = x (ix2 (gatherRow hN idx e) k) := by
  unfold Host.gather
  congr 1
  funext a
  refine Fin.ext ?_
  match a with
  | ⟨0, _⟩ =>
    show (rowGatherDims N W E wf).start (ix2 e k) idx 0 + (rowGatherDims N W E wf).batchCoord (ix2 e k) 0
        + (rowGatherDims N W E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N W E wf).startIndexMap from List.mem_singleton.mpr rfl)]
    have hsi : (rowGatherDims N W E wf).siIdx (ix2 e k) ⟨List.idxOf (0 : Fin 2) (rowGatherDims N W E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N W E wf).start (ix2 e k) idx 1 + (rowGatherDims N W E wf).batchCoord (ix2 e k) 1
        + (rowGatherDims N W E wf).offCoord (ix2 e k) 1 = k.val
    rw [GatherDims.batchCoord_eq_zero _ _ _ List.not_mem_nil]
    have hst : (rowGatherDims N W E wf).start (ix2 e k) idx 1 = 0 := by
      unfold GatherDims.start
      rw [dif_neg (show (1 : Fin 2) ∉ (rowGatherDims N W E wf).startIndexMap from fun h => absurd (List.mem_singleton.mp h) (show (1 : Fin 2) ≠ 0 by decide))]
    rw [hst]
    simp only [Nat.add_zero, Nat.zero_add]
    rfl

end Gather

/-! ## The accumulating scatter of rows -/

section Scatter

/-- The dimension numbers of a row scatter: operand `[N, W]`, row numbers `[E, 1]`, updates `[E, W]`. -/
abbrev rowScatterDims (N W E : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

/-- An operand axis is a window axis exactly when it is not an inserted one. -/
theorem mem_sKept {s si u : Shape} (d : ScatterDims s si u) (a : Fin s.rank) : a ∈ d.sKept ↔ a ∉ d.insertedWindowDims := by
  simp [ScatterDims.sKept, Shape.kept, List.mem_filter, List.mem_finRange]

variable {N W E w : Nat} (wf : ScatterDims.WF ⟨2, ![N, W]⟩ ⟨2, ![E, 1]⟩ ⟨2, ![E, W]⟩ [1] [0] [0] 1)

theorem start0 (idx : IVec ⟨2, ![E, 1]⟩ w) (e : Fin E) (k : Fin W) :
    (rowScatterDims N W E wf).start (ix2 e k) idx 0 = (idx (ix2 e 0)).toInt := by
  unfold ScatterDims.start
  rw [dif_pos (show (0 : Fin 2) ∈ (rowScatterDims N W E wf).scatterDimsToOperandDims from List.mem_singleton.mpr rfl)]
  have hsi : (rowScatterDims N W E wf).siIdx (ix2 e k) ⟨List.idxOf (0 : Fin 2) (rowScatterDims N W E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem start1 (idx : IVec ⟨2, ![E, 1]⟩ w) (e : Fin E) (k : Fin W) :
    (rowScatterDims N W E wf).start (ix2 e k) idx 1 = 0 := by
  unfold ScatterDims.start
  rw [dif_neg (show (1 : Fin 2) ∉ (rowScatterDims N W E wf).scatterDimsToOperandDims from fun h => absurd (List.mem_singleton.mp h) (show (1 : Fin 2) ≠ 0 by decide))]

theorem window0 (e : Fin E) (k : Fin W) : (rowScatterDims N W E wf).window (ix2 e k) 0 = 0 := by
  unfold ScatterDims.window
  rw [dif_neg (show (0 : Fin 2) ∉ (rowScatterDims N W E wf).sKept from fun h => ((mem_sKept _ _).mp h) (List.mem_singleton.mpr rfl))]

theorem window1 (e : Fin E) (k : Fin W) : (rowScatterDims N W E wf).window (ix2 e k) 1 = k.val := by
  unfold ScatterDims.window
  rw [dif_pos (show (1 : Fin 2) ∈ (rowScatterDims N W E wf).sKept from (mem_sKept _ _).mpr fun h => absurd (List.mem_singleton.mp h) (show (1 : Fin 2) ≠ 0 by decide))]
  rfl

/-- Update element `(e, k)` lands on operand element `(i, j)` exactly when row `e`'s row number, read signed,
    is `i`, and the lanes agree. -/
theorem resultIdx?_rows_iff (idx : IVec ⟨2, ![E, 1]⟩ w) (e : Fin E) (k : Fin W) (i : Fin N) (j : Fin W) :
    (rowScatterDims N W E wf).resultIdx? (ix2 e k) idx = some (ix2 i j)
      ↔ (idx (ix2 e 0)).toInt = (i.val : Int) ∧ k = j := by
  have hs0 := start0 wf idx e k
  have hs1 := start1 wf idx e k
  have hw0 := window0 wf e k
  have hw1 := window1 wf e k
  unfold ScatterDims.resultIdx?
  split
  · rename_i h
    rw [Option.some.injEq]
    constructor
    · intro hf
      have h0 := congrArg (fun f => (f 0).val) hf
      have h1 := congrArg (fun f => (f 1).val) hf
      simp only [hs0, hs1, hw0, hw1] at h0 h1
      have hh := (h 0).1
      rw [hs0, hw0] at hh
      refine ⟨?_, Fin.ext ?_⟩
      · have : ((idx (ix2 e 0)).toInt + ((0 : Nat) : Int)).toNat = i.val := h0
        omega
      · have : ((0 : Int) + ((k.val : Nat) : Int)).toNat = j.val := h1
        omega
    · rintro ⟨hi, rfl⟩
      funext a
      refine Fin.ext ?_
      match a with
      | ⟨0, _⟩ =>
        show ((rowScatterDims N W E wf).start (ix2 e k) idx 0 + ((rowScatterDims N W E wf).window (ix2 e k) 0 : Nat)).toNat = i.val
        rw [hs0, hw0, hi]; simp
      | ⟨1, _⟩ =>
        show ((rowScatterDims N W E wf).start (ix2 e k) idx 1 + ((rowScatterDims N W E wf).window (ix2 e k) 1 : Nat)).toNat = k.val
        rw [hs1, hw1]; simp
  · rename_i h
    constructor
    · intro hf; exact absurd hf (by simp)
    · rintro ⟨hi, rfl⟩
      exfalso
      apply h
      intro a
      match a with
      | ⟨0, _⟩ =>
        show 0 ≤ (rowScatterDims N W E wf).start (ix2 e k) idx 0 + ((rowScatterDims N W E wf).window (ix2 e k) 0 : Nat)
          ∧ (rowScatterDims N W E wf).start (ix2 e k) idx 0 + ((rowScatterDims N W E wf).window (ix2 e k) 0 : Nat) < (N : Int)
        rw [hs0, hw0, hi]
        have := i.isLt
        constructor <;> omega
      | ⟨1, _⟩ =>
        show 0 ≤ (rowScatterDims N W E wf).start (ix2 e k) idx 1 + ((rowScatterDims N W E wf).window (ix2 e k) 1 : Nat)
          ∧ (rowScatterDims N W E wf).start (ix2 e k) idx 1 + ((rowScatterDims N W E wf).window (ix2 e k) 1 : Nat) < (W : Int)
        rw [hs1, hw1]
        have := k.isLt
        constructor <;> omega

/-- THE ROW SCATTER-ADD READ AT `(i, j)` over the extended reals: the operand's element plus the sum of the update's
    lane `j` over the update rows whose row number is `i`. -/
theorem scatterAdd_rows_apply (x : (⟨2, ![N, W]⟩ : Shape).Idx → EReal) (idx : IVec ⟨2, ![E, 1]⟩ w)
    (U : (⟨2, ![E, W]⟩ : Shape).Idx → EReal) (i : Fin N) (j : Fin W) :
    Host.scatterAdd (F := Ideal) (φ := .f32) (rowScatterDims N W E wf) x idx U (ix2 i j)
      = x (ix2 i j) + ∑ e ∈ Finset.univ.filter (fun e : Fin E => (idx (ix2 e 0)).toInt = (i.val : Int)), U (ix2 e j) := by
  show Ideal.hostScatterAdd (rowScatterDims N W E wf) x idx U (ix2 i j) = _
  unfold Ideal.hostScatterAdd
  congr 1
  refine Finset.sum_bij (fun u _ => (u 0 : Fin E)) ?_ ?_ ?_ ?_
  · intro u hu
    rw [Finset.mem_filter] at hu
    rw [eq_ix2 u] at hu
    exact Finset.mem_filter.mpr ⟨Finset.mem_univ _, ((resultIdx?_rows_iff wf idx _ _ i j).mp hu.2).1⟩
  · intro u hu u' hu' h
    rw [Finset.mem_filter] at hu hu'
    have e1 := hu.2; have e2 := hu'.2
    rw [eq_ix2 u] at e1; rw [eq_ix2 u'] at e2
    have k1 := ((resultIdx?_rows_iff wf idx _ _ i j).mp e1).2
    have k2 := ((resultIdx?_rows_iff wf idx _ _ i j).mp e2).2
    rw [eq_ix2 u, eq_ix2 u']
    have h' : (u 0 : Fin E) = (u' 0 : Fin E) := h
    rw [h', show (u 1 : Fin W) = (u' 1 : Fin W) from k1.trans k2.symm]
  · intro e he
    rw [Finset.mem_filter] at he
    refine ⟨ix2 e j, ?_, rfl⟩
    rw [Finset.mem_filter]
    exact ⟨Finset.mem_univ _, (resultIdx?_rows_iff wf idx e j i j).mpr ⟨he.2, rfl⟩⟩
  · intro u hu
    rw [Finset.mem_filter] at hu
    have e1 := hu.2
    rw [eq_ix2 u] at e1
    have k1 := ((resultIdx?_rows_iff wf idx _ _ i j).mp e1).2
    conv_lhs => rw [eq_ix2 u]
    rw [show (u 1 : Fin W) = j from k1]
    rfl

end Scatter

end Cert.LibRows

end
-- ==== Proof.RefRead.lean ====
/-
  The reference program read as mathematics: its one output element is the Euclidean norm, over the nodes, of the
  output layer applied to the aggregate of hidden rows contracted with the second layer's weights.

  Reading the program's values one element at a time, innermost first:
    • the first dense layer at (n, d) is  Σ_k x(n,k) · W1(d,k) + b1(d)  (the weight matrix is read transposed, the
      bias broadcast along the nodes), and its sine is the hidden feature  hid n d;
    • the source row number of edge e is the second row of the edge list, with the number's own N added when it is
      negative; the row gather reads the hidden row at that number clamped into [0, N − 1]: the source node  src e;
    • the update row of edge e is the edge weight times the gathered hidden row;
    • the accumulating scatter, into zeros, sums the update rows over the edges whose target (the first row of the
      edge list, read signed) is the node r: the aggregate over  into r;
    • the second contraction at (r, 0) is  Σ_d (aggregate at (r,d)) · W2(0,d), the row aggregate  aggRow r;
    • the output is the sine of that plus the bias, squared, summed over the nodes from zero, and the square root.
-/
import proofs.«137217_j48069273977167_2_alg».proof.Proof.Gen.ReferenceIdeal.Read
import proofs.«137217_j48069273977167_2_alg».proof.Proof.LibRows
import proofs.«137217_j48069273977167_2_alg».proof.Proof.Spec

noncomputable section

open scoped BigOperators

namespace Cert.ReferenceIdeal.RefValue

open Cert.ReferenceIdeal Cert.ReferenceIdeal.Gen Cert.ReferenceIdeal.Read Idealize.ShloMosaic
  Idealize.ShloMosaic.ValueIdx Idealize.ShloMosaic.StableHlo

variable (x0 : (⟨S50000x256, .f32⟩ : BufTy).Contents (Elt Ideal))
  (x1 : (⟨S128x256, .f32⟩ : BufTy).Contents (Elt Ideal))
  (x2 : (⟨S128, .f32⟩ : BufTy).Contents (Elt Ideal))
  (x3 : (⟨S1x128, .f32⟩ : BufTy).Contents (Elt Ideal))
  (x4 : (⟨S1, .f32⟩ : BufTy).Contents (Elt Ideal))
  (x5 : (⟨S2x800000, .i32⟩ : BufTy).Contents (Elt Ideal))
  (x6 : (⟨S800000, .f32⟩ : BufTy).Contents (Elt Ideal))

/-- The program's seven arguments as the specification's inputs. -/
@[reducible] def inputs : Spec.Inputs := ⟨x0, x1, x2, x3, x4, x5, x6⟩

local notation "I" => inputs x0 x1 x2 x3 x4 x5 x6

/-! ## The first dense layer and the hidden features -/

/-- The first contraction at (n, d): the weight matrix is read transposed. -/
theorem v1_eq (n : Fin 50000) (d : Fin 128) :
    val_main_v1 (F := Ideal) x0 x1 (ix2 n d) = ∑ k : Fin 256, x0 (ix2 n k) * x1 (ix2 d k) := by
  rw [val_main_v1_apply]
  refine Finset.sum_congr rfl (fun k _ => ?_)
  rw [val_main_v0_apply]
  have hl : lidx_main_v1 (ix2 n d) k = ix2 n k := funext fun a => Fin.ext (by match a with | ⟨0, _⟩ => rfl | ⟨1, _⟩ => rfl)
  have hr : idx_main_v0 (ridx_main_v1 (ix2 n d) k) = ix2 d k := funext fun a => Fin.ext (by match a with | ⟨0, _⟩ => rfl | ⟨1, _⟩ => rfl)
  rw [hl, hr]

/-- The bias broadcast along the nodes at (n, d). -/
theorem v3_eq (n : Fin 50000) (d : Fin 128) : val_main_v3 (F := Ideal) x2 (ix2 n d) = x2 (ix1 d) := by
  rw [val_main_v3_apply, val_main_v2_apply]
  exact congrArg x2 (funext fun a => Fin.ext (by match a with | ⟨0, _⟩ => rfl))

/-- The sine of the first dense layer at (n, d) is the hidden feature. -/
theorem v5_eq (n : Fin 50000) (d : Fin 128) :
    val_main_v5 (F := Ideal) x0 x1 x2 (ix2 n d) = Spec.hid I n d := by
  rw [val_main_v5_apply, val_main_v4_apply, Ideal.hostUnary_sin_def, Ideal.addf_def, v1_eq, v3_eq]
  rfl

/-! ## The two rows of the edge list -/

/-- The first row of the edge list, flattened, at e. -/
theorem v7_eq (e : Fin 800000) : val_main_v7 (F := Ideal) x5 (ix1 e) = x5 (ix2 0 e) := by
  rw [val_main_v7_apply, val_main_v6_apply]
  refine congrArg x5 (funext fun a => Fin.ext ?_)
  match a with
  | ⟨0, _⟩ => rfl
  | ⟨1, _⟩ => exact Nat.mod_eq_of_lt e.isLt

/-- The second row of the edge list, flattened, at e. -/
theorem v9_eq (e : Fin 800000) : val_main_v9 (F := Ideal) x5 (ix1 e) = x5 (ix2 1 e) := by
  rw [val_main_v9_apply, val_main_v8_apply]
  refine congrArg x5 (funext fun a => Fin.ext ?_)
  match a with
  | ⟨0, _⟩ => rfl
  | ⟨1, _⟩ => exact Nat.mod_eq_of_lt e.isLt

/-- The source row number of edge e as a word: a negative number has N added. -/
theorem v16_eq (e : Fin 800000) : val_main_v16 (F := Ideal) x5 (ix2 e 0) = Spec.srcWord I e := by
  rw [val_main_v16_apply]
  have hi : idx_main_v16 (ix2 e (0 : Fin 1)) = ix1 e := funext fun a => Fin.ext (by match a with | ⟨0, _⟩ => rfl)
  rw [hi, val_main_v15_apply, val_main_v12_apply, val_main_v14_apply, val_main_v11_apply, val_main_v13_apply,
    val_main_c_apply, val_main_c_0_apply, v9_eq]
  rfl

/-- The row the gather reads for edge e is the edge's source node. -/
theorem gatherRow_eq (hN : 0 < 50000) (e : Fin 800000) :
    LibRows.gatherRow hN (val_main_v16 (F := Ideal) x5) e = Spec.src I e := by
  refine Fin.ext ?_
  show min (val_main_v16 (F := Ideal) x5 (ix2 e 0)).toInt.toNat (50000 - 1)
    = min (Spec.srcWord I e).toInt.toNat (50000 - 1)
  rw [v16_eq x0 x1 x2 x3 x4 x5 x6]

/-! ## The gathered rows, the update rows and their aggregate -/

/-- The gathered row of edge e at lane d: the hidden feature of the edge's source node. -/
theorem v17_eq (e : Fin 800000) (d : Fin 128) :
    val_main_v17 (F := Ideal) x0 x1 x2 x5 (ix2 e d) = Spec.hid I (Spec.src I e) d := by
  have hN : 0 < 50000 := Nat.succ_pos _
  unfold val_main_v17
  refine (LibRows.gather_rows_apply hN gather_S50000x128_S800000x1_S800000x128_1_0_n_n_0_1_1128_wf
    (val_main_v5 (F := Ideal) x0 x1 x2) (val_main_v16 (F := Ideal) x5) e d).trans ?_
  rw [gatherRow_eq x0 x1 x2 x3 x4 x5 x6, v5_eq x0 x1 x2 x3 x4 x5 x6]

/-- The edge weight broadcast along the lanes at (e, d). -/
theorem v18_eq (e : Fin 800000) (d : Fin 128) : val_main_v18 (F := Ideal) x6 (ix2 e d) = x6 (ix1 e) := by
  rw [val_main_v18_apply, val_main_v10_apply]
  exact congrArg x6 (funext fun a => Fin.ext (by match a with | ⟨0, _⟩ => rfl))

/-- The update row of edge e at lane d: the edge weight times the source node's hidden feature. -/
theorem v19_eq (e : Fin 800000) (d : Fin 128) :
    val_main_v19 (F := Ideal) x0 x1 x2 x5 x6 (ix2 e d) = x6 (ix1 e) * Spec.hid I (Spec.src I e) d := by
  rw [val_main_v19_apply, Ideal.mulf_def, v18_eq, v17_eq x0 x1 x2 x3 x4 x5 x6]

/-- The array the scatter accumulates into is zero. -/
theorem v20_eq (r : Fin 50000) (d : Fin 128) : val_main_v20 (F := Ideal) (ix2 r d) = (0 : EReal) := by
  rw [val_main_v20_apply, val_main_cst_apply, Ideal.ofBits_def, Ideal.ofBits_zero_f32]

/-- The target row number of edge e: the first row of the edge list. -/
theorem v21_eq (e : Fin 800000) : val_main_v21 (F := Ideal) x5 (ix2 e 0) = x5 (ix2 0 e) := by
  rw [val_main_v21_apply]
  have hi : idx_main_v21 (ix2 e (0 : Fin 1)) = ix1 e := funext fun a => Fin.ext (by match a with | ⟨0, _⟩ => rfl)
  rw [hi, v7_eq]

/-- The scattered array at (r, d): the sum of the update rows' lane d over the edges into r. -/
theorem v22_eq (r : Fin 50000) (d : Fin 128) :
    val_main_v22 (F := Ideal) x0 x1 x2 x5 x6 (ix2 r d)
      = ∑ e ∈ Spec.into I r, x6 (ix1 e) * Spec.hid I (Spec.src I e) d := by
  unfold val_main_v22
  refine (LibRows.scatterAdd_rows_apply scatter_S50000x128_S800000x1_S800000x128_1_0_0_1_wf
    (val_main_v20 (F := Ideal)) (val_main_v21 (F := Ideal) x5) (val_main_v19 (F := Ideal) x0 x1 x2 x5 x6) r d).trans ?_
  rw [v20_eq, zero_add]
  unfold Spec.into
  refine Finset.sum_congr (Finset.filter_congr (fun e _ => ?_)) (fun e _ => v19_eq x0 x1 x2 x3 x4 x5 x6 e d)
  rewrite [v21_eq]
  exact Iff.rfl

/-! ## The second contraction and the output layer -/

/-- The second layer's weights, read transposed, at (d, 0). -/
theorem v23_eq (d : Fin 128) : val_main_v23 (F := Ideal) x3 (ix2 d 0) = x3 (ix2 0 d) := by
  rw [val_main_v23_apply]
  exact congrArg x3 (funext fun a => Fin.ext (by match a with | ⟨0, _⟩ => rfl | ⟨1, _⟩ => rfl))

/-- The second contraction at (r, 0) is the row aggregate contracted with the second layer's weights. -/
theorem v24_eq (r : Fin 50000) :
    val_main_v24 (F := Ideal) x0 x1 x2 x3 x5 x6 (ix2 r 0) = Spec.aggRow I r := by
  rw [val_main_v24_apply]
  unfold Spec.aggRow
  refine Finset.sum_congr rfl (fun d _ => ?_)
  have hl : lidx_main_v24 (ix2 r (0 : Fin 1)) d = ix2 r d := funext fun a => Fin.ext (by match a with | ⟨0, _⟩ => rfl | ⟨1, _⟩ => rfl)
  have hr : ridx_main_v24 (ix2 r (0 : Fin 1)) d = ix2 d 0 := funext fun a => Fin.ext (by match a with | ⟨0, _⟩ => rfl | ⟨1, _⟩ => rfl)
  rw [hl, hr, v22_eq x0 x1 x2 x3 x4 x5 x6, v23_eq]

/-- The output bias broadcast along the nodes at (r, 0). -/
theorem v26_eq (r : Fin 50000) : val_main_v26 (F := Ideal) x4 (ix2 r 0) = x4 (ix1 0) := by
  rw [val_main_v26_apply, val_main_v25_apply]
  exact congrArg x4 (funext fun a => Fin.ext (by match a with | ⟨0, _⟩ => rfl))

/-- The squared output at node r. -/
theorem v29_eq (r : Fin 50000) :
    val_main_v29 (F := Ideal) x0 x1 x2 x3 x4 x5 x6 (ix2 r 0)
      = Ideal.sin (Spec.aggRow I r + x4 (ix1 0)) * Ideal.sin (Spec.aggRow I r + x4 (ix1 0)) := by
  rw [val_main_v29_apply, val_main_v28_apply, val_main_v27_apply, Ideal.mulf_def, Ideal.hostUnary_sin_def,
    Ideal.addf_def, v24_eq x0 x1 x2 x3 x4 x5 x6, v26_eq]

/-- The sum of the squared outputs over the nodes, from zero. -/
theorem v30_eq (i : S1.Idx) :
    val_main_v30 (F := Ideal) x0 x1 x2 x3 x4 x5 x6 i
      = ∑ r : Fin 50000, Ideal.sin (Spec.aggRow I r + x4 (ix1 0)) * Ideal.sin (Spec.aggRow I r + x4 (ix1 0)) := by
  rw [val_main_v30_apply, val_main_cst_1_apply, Ideal.ofBits_def, Ideal.ofBits_zero_f32, zero_add]
  refine Finset.sum_congr rfl (fun r _ => ?_)
  have hi : idx_main_v30 i r = ix2 r 0 := funext fun a => Fin.ext (by
    match a with
    | ⟨0, _⟩ => rfl
    | ⟨1, _⟩ =>
      have h : (i 0).val < 1 := (i 0).isLt
      show (i 0).val = 0
      omega)
  rw [hi, v29_eq]

/-- THE REFERENCE PROGRAM'S RESULT is the norm over the nodes of the output layer applied to the row aggregate. -/
theorem ref_eq :
    val_main_v31 (F := Ideal) x0 x1 x2 x3 x4 x5 x6 = fun _ => Spec.normOf I (Spec.aggRow I) := by
  funext i
  rw [val_main_v31_apply, Ideal.hostUnary_sqrt_def, v30_eq]
  rfl

end Cert.ReferenceIdeal.RefValue

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.LibDenseLayer.lean ====
/-
  A dense layer as a kernel body spells it, read at an index on the extended reals. The body narrows both operands of the
  matrix product to a shorter float format (the identity on the extended reals), multiplies into a zero accumulator and adds a
  bias held as a one-row matrix spread down the rows. At entry (r, j) that is the sum over the contraction position k of
  x(r, k) · w(k, j), plus b(0, j). The weight and the bias pass through a reshape to their own shape, which is the identity.
  Nothing here depends on a program: the product's dimension numbers enter through the hypothesis that they are those of a
  plain [M, K] × [K, N] product.
-/
import proofs.«137217_j48069273977167_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace DenseLayer

open Idealize.ShloMosaic Idealize.ShloMosaic.ValueIdx

variable {M K N : Nat}

/-- The product of a narrowed activation block with a narrowed, identically reshaped weight block, into the zero
    accumulator, at entry (r, j): the sum over k of x(r, k) · w(k, j). -/
theorem matmul_narrowed_apply (D : DotDims ⟨2, ![M, K]⟩ ⟨2, ![K, N]⟩ ⟨2, ![M, N]⟩) (hD : PlainDot.IsPlain D)
    (prec : Option ContractPrecision) (x : FVec Ideal ⟨2, ![M, K]⟩ .f32) (w : FVec Ideal ⟨2, ![K, N]⟩ .f32)
    (hw : (⟨2, ![K, N]⟩ : Shape).ShapeCasts ⟨2, ![K, N]⟩) (h1 h2 : FTy.bf16.bits < FTy.f32.bits) (r : Fin M) (j : Fin N) :
    matmul D prec (truncf .bf16 x h1) (truncf .bf16 (shapeCast ⟨2, ![K, N]⟩ w hw) h2)
        (constant (F := Ideal) ⟨2, ![M, N]⟩ .f32 0x00000000#32) (ix2 r j)
      = ∑ k : Fin K, x (ix2 r k) * w (ix2 k j) := by
  rw [shapeCast_self]
  exact PlainDot.matmul_zero_apply D hD prec (truncf .bf16 x h1) (truncf .bf16 w h2) r j

/-- A bias row, identically reshaped and spread down the rows, at entry (r, j): b(0, j). -/
theorem bias_row_apply {α : Type} (b : (⟨2, ![1, N]⟩ : Shape).Idx → α) (hb : (⟨2, ![1, N]⟩ : Shape).ShapeCasts ⟨2, ![1, N]⟩)
    (hbb : (⟨2, ![1, N]⟩ : Shape).Broadcasts ⟨2, ![M, N]⟩) (r : Fin M) (j : Fin N) :
    broadcastTo ⟨2, ![M, N]⟩ (shapeCast ⟨2, ![1, N]⟩ b hb) hbb (ix2 r j) = b (ix2 (0 : Fin 1) j) := by
  rw [shapeCast_self]
  exact broadcastTo_1b_ab_apply b hbb r j

/-- The whole layer at entry (r, j). -/
theorem dense_apply (D : DotDims ⟨2, ![M, K]⟩ ⟨2, ![K, N]⟩ ⟨2, ![M, N]⟩) (hD : PlainDot.IsPlain D)
    (prec : Option ContractPrecision) (x : FVec Ideal ⟨2, ![M, K]⟩ .f32) (w : FVec Ideal ⟨2, ![K, N]⟩ .f32)
    (b : FVec Ideal ⟨2, ![1, N]⟩ .f32)
    (hw : (⟨2, ![K, N]⟩ : Shape).ShapeCasts ⟨2, ![K, N]⟩) (h1 h2 : FTy.bf16.bits < FTy.f32.bits)
    (hb : (⟨2, ![1, N]⟩ : Shape).ShapeCasts ⟨2, ![1, N]⟩) (hbb : (⟨2, ![1, N]⟩ : Shape).Broadcasts ⟨2, ![M, N]⟩)
    (r : Fin M) (j : Fin N) :
    addf (matmul D prec (truncf .bf16 x h1) (truncf .bf16 (shapeCast ⟨2, ![K, N]⟩ w hw) h2)
        (constant (F := Ideal) ⟨2, ![M, N]⟩ .f32 0x00000000#32))
      (broadcastTo ⟨2, ![M, N]⟩ (shapeCast ⟨2, ![1, N]⟩ b hb) hbb) (ix2 r j)
      = (∑ k : Fin K, x (ix2 r k) * w (ix2 k j)) + b (ix2 (0 : Fin 1) j) := by
  rw [addf_apply, matmul_narrowed_apply D hD prec x w hw h1 h2 r j, bias_row_apply b hb hbb r j]

end DenseLayer

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.Body.lean ====
/-
  The kernel body's one store, read at an index over the extended reals.

  A row tile holds 5000 nodes. The body multiplies the tile of input rows by the first layer's weights (held
  transposed, [256, 128]) into a zero accumulator, adds the bias row, takes the sine, multiplies each hidden row by
  the second layer's weight row and sums along the 128 lanes, keeping the lane axis as a unit axis. Narrowing the
  product's operands to a shorter float format is the identity on the extended reals. So the stored column at row p is
      Σ_d sin (Σ_k x(p,k) · w(k,d) + b(0,d)) · v(0,d).
-/
import proofs.«137217_j48069273977167_2_alg».proof.Proof.Gen.KernelIdeal.Skeleton
import proofs.«137217_j48069273977167_2_alg».proof.Proof.LibDenseLayer
import proofs.«137217_j48069273977167_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The tile's matrix product has plain dimension numbers: rows of the left operand against columns of the right. -/
theorem dot_plain : PlainDot.IsPlain dot_S5000x256_S256x128_S5000x128_1_0_0_1_n_n where
  rank := rfl
  size := rfl
  lhs0 := fun i q => by
    unfold DotDims.lhsIdx
    rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
    rfl
  lhs1 := fun i q => dot_S5000x256_S256x128_S5000x128_1_0_0_1_n_n.lhsIdx_val_of_single rfl i q
  rhs0 := fun i q => dot_S5000x256_S256x128_S5000x128_1_0_0_1_n_n.rhsIdx_val_of_single rfl i q
  rhs1 := fun i q => by
    unfold DotDims.rhsIdx
    rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
    rfl

/-- A sum along the 128 lanes of a [5000, 128] tile, at row p: the sum over d of the tile's entry (p, d). -/
theorem lane_sum_apply (v : FVec Ideal S5000x128 .f32) (h : S5000x128.Reduces [1] S5000) (hφ : FKind.Formats .f32)
    (hacc : (0x00000000#32 : BitVec 32) = 0x00000000#32) (p : Fin 5000) :
    multiReduction .add [1] S5000 v 0x00000000#32 h hφ hacc (ix1 p) = ∑ d : Fin 128, v (ix2 p d) := by
  refine (Ideal.multiReduction_add_single v 0x00000000#32 h hφ hacc (ix1 p)).trans ?_
  refine Finset.sum_congr rfl fun d _ => congrArg v ?_
  funext a
  refine Fin.ext ?_
  match a with
  | ⟨0, _⟩ => rfl
  | ⟨1, _⟩ => rfl

/-- THE STORED COLUMN AT ROW p. -/
theorem pay_apply (x0 : Vec Ideal S5000x256 .f32) (x1 : Vec Ideal S256x128 .f32) (x2 x3 : Vec Ideal S1x128 .f32)
    (p : Fin 5000) (u : Fin 1) :
    k0_pay1 (F := Ideal) x0 x1 x2 x3 (ix2 p u)
      = ∑ d : Fin 128, Ideal.sin ((∑ k : Fin 256, x0 (ix2 p k) * x1 (ix2 k d)) + x2 (ix2 0 d)) * x3 (ix2 0 d) := by
  unfold k0_pay1
  refine (Keepdims.shapeCast_a_a1_apply _ shapeCasts_S5000_S5000x1 p u).trans ?_
  refine (lane_sum_apply _ _ _ _ p).trans ?_
  refine Finset.sum_congr rfl fun d _ => ?_
  rw [mulf_apply]
  refine congrArg₂ (· * ·) ?_ (broadcastTo_1b_ab_apply x3 broadcasts_S1x128_S5000x128 p d)
  refine congrArg Ideal.sin ?_
  exact DenseLayer.dense_apply dot_S5000x256_S256x128_S5000x128_1_0_0_1_n_n dot_plain none x0 x1 x2
    shapeCasts_S256x128_S256x128 bitsLt_bf16_f32 bitsLt_bf16_f32 shapeCasts_S1x128_S1x128 broadcasts_S1x128_S5000x128 p d

end Cert.KernelIdeal.Body

end
-- ==== Proof.KernelArray.lean ====
/-
  From the kernel's row tiles to the whole column it writes.

  The kernel runs over ten row tiles of 5000 nodes. At tile t it reads rows [5000·t, 5000·t + 5000) of the input
  matrix and the whole of the transposed first-layer weights, the first-layer bias row and the second-layer weight
  row, and writes rows [5000·t, 5000·t + 5000) of a column [50000, 1]. Since each written row depends only on the
  same row of the input, the ten tiles together write ONE function of the arrays as the kernel finds them: row n of
  the column is  Σ_d sin (Σ_k X(n,k) · Wt(k,d) + B(0,d)) · V2(0,d).  The tiles cover every row (row n lies in tile
  n / 5000), so after the run the column holds that function everywhere.
-/
import proofs.«137217_j48069273977167_2_alg».proof.Proof.Gen.KernelIdeal.Frame
import proofs.«137217_j48069273977167_2_alg».proof.Proof.Body
import Idealize.ShloMosaic.Lib.Pipeline.Value
import Idealize.ShloMosaic.Lib.ValueIdx

set_option maxRecDepth 16384

noncomputable section

open scoped BigOperators

namespace Cert.KernelIdeal.Arr

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- Row `n` of the column: the node's hidden row, contracted with the second layer's weight row. -/
def zrow (X : S50000x256.Idx → EReal) (Wt : S256x128.Idx → EReal) (B V2 : S1x128.Idx → EReal) (n : Fin 50000) : EReal :=
  ∑ d : Fin 128, Ideal.sin ((∑ k : Fin 256, X (ix2 n k) * Wt (ix2 k d)) + B (ix2 0 d)) * V2 (ix2 0 d)

/-- The whole column as one function of the four arrays. -/
def zcol (X : S50000x256.Idx → EReal) (Wt : S256x128.Idx → EReal) (B V2 : S1x128.Idx → EReal) : S50000x1.Idx → EReal :=
  fun i => zrow X Wt B V2 ⟨(i 0).val, (i 0).isLt⟩

/-- The printed index maps over the ten tiles: the input rows move with the output rows, everything else stays. -/
theorem idx_facts : ∀ t : Fin cfg0.N, win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 9 :=
  (by decide +kernel : ∀ t : Fin grid0.N, _)

/-- Every one of the ten row tiles is some grid point's. -/
theorem idx_onto : ∀ q : Fin 10, ∃ t : Fin cfg0.N, win0_4.index t = ![q.val, 0] :=
  (by decide +kernel : ∀ q : Fin 10, ∃ t : Fin grid0.N, win0_4.index t = ![q.val, 0])

/-- An index of the column whose row number is `n` reads row `n`. -/
theorem zcol_of_row (X : S50000x256.Idx → EReal) (Wt : S256x128.Idx → EReal) (B V2 : S1x128.Idx → EReal)
    (i : S50000x1.Idx) (n : Fin 50000) (h : (i 0).val = n.val) : zcol X Wt B V2 i = zrow X Wt B V2 n :=
  congrArg (zrow X Wt B V2) (Fin.ext h)

/-! ## What each input tile holds -/

/-- Tile `t` of the input matrix holds rows 5000·t … of it: its entry (p, k) is the matrix's entry (5000·t + p, k). -/
theorem iblk0_apply (c : Dev nD) (t : Fin cfg0.N) (p : Fin 5000) (k : Fin 256) (n : Fin 50000)
    (hn : n.val = win0_4.index t (0 : Fin 2) * 5000 + p.val) :
    iblk m c 0 t (ix2 p k) = V m c main_arg0 (ix2 n k) := by
  obtain ⟨e0, e1, -⟩ := idx_facts t
  show V m c main_arg0 (((cfg0.win 0).blk t).view.emb (ix2 p k)) = _
  refine congrArg _ ?_
  funext a; apply Fin.ext
  match a with
  | ⟨0, _⟩ => show win0_0.index t (0 : Fin 2) * 5000 + 1 * p.val = n.val; omega
  | ⟨1, _⟩ => show win0_0.index t (1 : Fin 2) * 256 + 1 * k.val = k.val; omega

/-- The transposed weights are read whole at every tile. -/
theorem iblk1_apply (c : Dev nD) (t : Fin cfg0.N) (k : Fin 256) (d : Fin 128) :
    iblk m c 1 t (ix2 k d) = V m c main_v0 (ix2 k d) := by
  obtain ⟨-, -, e2, e3, -⟩ := idx_facts t
  show V m c main_v0 (((cfg0.win 1).blk t).view.emb (ix2 k d)) = _
  refine congrArg _ ?_
  funext a; apply Fin.ext
  match a with
  | ⟨0, _⟩ => show win0_1.index t (0 : Fin 2) * 256 + 1 * k.val = k.val; omega
  | ⟨1, _⟩ => show win0_1.index t (1 : Fin 2) * 128 + 1 * d.val = d.val; omega

/-- The first layer's bias row is read whole at every tile. -/
theorem iblk2_apply (c : Dev nD) (t : Fin cfg0.N) (z : Fin 1) (d : Fin 128) :
    iblk m c 2 t (ix2 z d) = V m c main_v1 (ix2 z d) := by
  obtain ⟨-, -, -, -, e4, e5, -⟩ := idx_facts t
  show V m c main_v1 (((cfg0.win 2).blk t).view.emb (ix2 z d)) = _
  refine congrArg _ ?_
  funext a; apply Fin.ext
  match a with
  | ⟨0, _⟩ => show win0_2.index t (0 : Fin 2) * 1 + 1 * z.val = z.val; omega
  | ⟨1, _⟩ => show win0_2.index t (1 : Fin 2) * 128 + 1 * d.val = d.val; omega

/-- The second layer's weight row is read whole at every tile. -/
theorem iblk3_apply (c : Dev nD) (t : Fin cfg0.N) (z : Fin 1) (d : Fin 128) :
    iblk m c 3 t (ix2 z d) = V m c main_arg3 (ix2 z d) := by
  obtain ⟨-, -, -, -, -, -, e6, e7, -⟩ := idx_facts t
  show V m c main_arg3 (((cfg0.win 3).blk t).view.emb (ix2 z d)) = _
  refine congrArg _ ?_
  funext a; apply Fin.ext
  match a with
  | ⟨0, _⟩ => show win0_3.index t (0 : Fin 2) * 1 + 1 * z.val = z.val; omega
  | ⟨1, _⟩ => show win0_3.index t (1 : Fin 2) * 128 + 1 * d.val = d.val; omega

/-! ## What tile `t` writes back -/

/-- WHAT POINT `t` WRITES BACK is tile `t` of the column `zcol` of the arrays as the kernel finds them. -/
theorem flushed_eq (c : Dev nD) (t : Fin cfg0.N) :
    (dats m 0 c).flushed 4 t = ((cfg0.win 4).blk t).view.read (Elt Ideal)
      (zcol (V m c main_arg0) (V m c main_v0) (V m c main_v1) (V m c main_arg3)) := by
  show (cfg0.win 4).cut (grid0.coords t) ((dats m 0 c).after 4 t) = _
  rw [after0_4]
  unfold out0_4
  rw [View.canon_unit_zero hz]
  simp only [View.ld_unit_zero (S := S5000x256) hz, View.ld_unit_zero (S := S256x128) hz, View.ld_unit_zero (S := S1x128) hz]
  obtain ⟨e0, e1, e2, e3, e4, e5, e6, e7, e8, e9⟩ := idx_facts t
  refine funext fun (j : S5000x1.Idx) => ?_
  obtain ⟨p, u, rfl⟩ : ∃ (p : Fin 5000) (u : Fin 1), j = ix2 p u := ⟨j 0, j 1, eq_ix2 j⟩
  have hp : p.val < 5000 := p.isLt
  show k0_pay1 (F := Ideal) (iblk m c 0 t) (iblk m c 1 t) (iblk m c 2 t) (iblk m c 3 t) (ix2 p u)
      = zcol (V m c main_arg0) (V m c main_v0) (V m c main_v1) (V m c main_arg3) (((cfg0.win 4).blk t).view.emb (ix2 p u))
  refine (Body.pay_apply (iblk m c 0 t) (iblk m c 1 t) (iblk m c 2 t) (iblk m c 3 t) p u).trans ?_
  refine Eq.trans ?_ (zcol_of_row _ _ _ _ _ ⟨win0_4.index t (0 : Fin 2) * 5000 + p.val, by omega⟩ ?_).symm
  · unfold zrow
    refine Finset.sum_congr rfl fun d _ => ?_
    refine congrArg₂ (· * ·) (congrArg Ideal.sin (congrArg₂ (· + ·) (Finset.sum_congr rfl fun k _ =>
      congrArg₂ (· * ·) (iblk0_apply m c t p k _ rfl) (iblk1_apply m c t k d)) (iblk2_apply m c t 0 d))) (iblk3_apply m c t 0 d)
  · show win0_4.index t (0 : Fin 2) * 5000 + 1 * p.val = win0_4.index t (0 : Fin 2) * 5000 + p.val
    omega

/-! ## The tiles cover the column -/

/-- An index of the column is in point `t`'s tile iff each coordinate is in the tile's range on its axis. -/
theorem mem_blk (t : Fin cfg0.N) (i : S50000x1.Idx) :
    i ∈ ((cfg0.win 4).blk t).view.set ↔ ∀ a : Fin 2, win0_4.index t a * S5000x1.size a ≤ (i a).val ∧ (i a).val < win0_4.index t a * S5000x1.size a + S5000x1.size a := by
  show i ∈ ((View.whole main_v2).slice (win0_4.rect t)).set ↔ _
  rw [View.set_slice_whole, Rect.mem_set_unit]
  exact Iff.rfl

/-- Row n of the column lies in tile n / 5000. -/
theorem cover (i : S50000x1.Idx) : ∃ t : Fin cfg0.N, (cfg0.win 4).flush t = true ∧ i ∈ ((cfg0.win 4).blk t).view.set := by
  have hi0 : (i 0).val < 50000 := (i 0).isLt
  have hi1 : (i 1).val < 1 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 1 ≤ (i 1).val ∧ (i 1).val < win0_4.index t (1 : Fin 2) * 1 + 1; omega

/-- THE COLUMN after the run: `zcol` of the arrays as the kernel finds them. -/
theorem final (c : Dev nD) : (dats m 0 c).arrAt 4 cfg0.N
    = zcol (V m c main_arg0) (V m c main_v0) (V m c main_v1) (V m c main_arg3) :=
  (dats m 0 c).arrAt_eq_of_cover 4 _ (fun t _ => flushed_eq m c t) cover

end Cert.KernelIdeal.Arr

end
-- ==== Proof.TailDef.lean ====
/-
  The host operations after the kernel, as one function of what they read.

  They take the kernel's column z (one scalar per node: the node's hidden row contracted with the second layer's
  weights), the edge list, the edge weights and the second layer's bias. Each edge fetches z at its source node (the
  second row of the edge list, a negative number wrapped by the node count; the fetch clamps the position), scales it
  by the edge weight and adds it into its target node's slot (the first row of the edge list; an out-of-range target
  is dropped), starting from zero. Each node's sum plus the bias goes through the sine, and the result is the square
  root of the sum of the squares over the nodes.
-/
import proofs.«137217_j48069273977167_2_alg».proof.KernelIdeal
import Idealize.ShloMosaic.PureOps.Ideal

noncomputable section

namespace Cert.KernelIdeal.Tail

open Cert.KernelIdeal Idealize.ShloMosaic

variable [Facts]
open Facts₀ Facts

/-- The operations after the kernel, in program order, on the extended reals. -/
def tail (z : FVec Ideal S50000x1 .f32) (b2 : FVec Ideal S1 .f32) (ei : IVec S2x800000 32) (ew : FVec Ideal S800000 .f32) :
    FVec Ideal S1 .f32 :=
  let v3 : IVec S1x800000 32 := extractStridedSlice S1x800000 ![0, 0] ei slices_S2x800000_S1x800000_0_0
  let v4 : IVec S800000 32 := shapeCast S800000 v3 shapeCasts_S1x800000_S800000
  let v5 : IVec S1x800000 32 := extractStridedSlice S1x800000 ![1, 0] ei slices_S2x800000_S1x800000_1_0
  let v6 : IVec S800000 32 := shapeCast S800000 v5 shapeCasts_S1x800000_S800000
  let v7 : FVec Ideal S50000 .f32 := shapeCast S50000 z shapeCasts_S50000x1_S50000
  let v8 : IVec S800000 32 := broadcastInDim S800000 ![] bcast_S_S800000 (constantI S_ 32 0#32)
  let v9 : IVec S800000 1 := cmpi .slt v6 v8
  let v10 : IVec S800000 32 := broadcastInDim S800000 ![] bcast_S_S800000 (constantI S_ 32 50000#32)
  let v11 : IVec S800000 32 := addi v6 v10
  let v12 : IVec S800000 32 := select v9 v11 v6
  let v13 : IVec S800000x1 32 := broadcastInDim S800000x1 ![0] bcast_S800000_S800000x1_0 v12
  let v14 : FVec Ideal S800000 .f32 := Host.gather gather_S50000_S800000x1_S800000_n_0_n_n_0_1_1 v7 v13
  let v15 : FVec Ideal S800000 .f32 := mulf ew v14
  let v16 : FVec Ideal S50000 .f32 := broadcastInDim S50000 ![] bcast_S_S50000 (constant (F := Ideal) S_ .f32 0x00000000#32)
  let v17 : IVec S800000x1 32 := broadcastInDim S800000x1 ![0] bcast_S800000_S800000x1_0 v4
  let v18 : FVec Ideal S50000 .f32 := Host.scatterAdd (F := Ideal) scatter_S50000_S800000x1_S800000_n_0_0_1 v16 v17 v15
  let v19 : FVec Ideal S_ .f32 := shapeCast S_ b2 shapeCasts_S1_S_
  let v20 : FVec Ideal S50000 .f32 := broadcastInDim S50000 ![] bcast_S_S50000 v19
  let v21 : FVec Ideal S50000 .f32 := addf v18 v20
  let v22 : FVec Ideal S50000 .f32 := Host.sin (F := Ideal) v21
  let v23 : FVec Ideal S50000 .f32 := mulf v22 v22
  let v24 : FVec Ideal S_ .f32 := Host.reduceAdd (F := Ideal) v23 (constant (F := Ideal) S_ .f32 0x00000000#32) reducesTo_S50000_S_d0 h_S_
  let v25 : FVec Ideal S_ .f32 := Host.sqrt (F := Ideal) v24
  shapeCast S1 v25 shapeCasts_S_S1

end Cert.KernelIdeal.Tail

end
-- ==== Proof.LibVecRows.lean ====
/-
  Gathering entries of a vector and scatter-adding into a vector, read at one position.

Taking entries `x[idx]` of a vector `x : [N]` at a column of positions `idx : [E, 1]` is StableHLO's gather with no
offset axis, collapsed axis 0, start index map [0], index vector axis 1 and slices of one element: result entry `e`
is `x` at position `idx[e, 0]`, where the position is read as a signed integer and then clamped into `[0, N − 1]`,
so a negative position reads the first entry and a position at or beyond `N` reads the last.  The accumulating
scatter with no update window axis, inserted window axis 0, scatter-to-operand map [0] and index vector axis 1 treats
positions differently: update entry `e` is added to operand entry `idx[e, 0]` only when that position, read signed
and left as it is (no clamping), already lies in `[0, N)`; an update whose position is negative or at least `N`
is discarded.  Over the extended reals the scattered vector at entry `i` is thus the operand's entry `i` plus the sum
of the update entries `e` whose position equals `i`.
-/
import Idealize.ShloMosaic.PureOps.Ideal
import Idealize.ShloMosaic.Lib.ValueIdx

noncomputable section

open scoped BigOperators

namespace Cert.LibVecRows

open Idealize.ShloMosaic Idealize.ShloMosaic.ValueIdx

/-! ## The gather of entries -/

section Gather
variable {α : Type}

/-- The dimension numbers of an entry gather: operand `[N]`, positions `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The entry the gather reads for result entry `e`: the position `idx[e, 0]` as a signed integer, clamped into
    `[0, N − 1]` (negative positions go to `0`, positions past the end go to `N − 1`). -/
def gatherPos {N E w : Nat} (hN : 0 < N) (idx : IVec ⟨2, ![E, 1]⟩ w) (e : Fin E) : Fin N :=
  ⟨min (idx (ix2 e 0)).toInt.toNat (N - 1), by omega⟩

/-- THE ENTRY GATHER READ AT `e`: the operand at the clamped position. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (gatherPos hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## The accumulating scatter of entries -/

section Scatter

/-- The dimension numbers of an entry scatter: operand `[N]`, positions `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- An operand axis carries a window coordinate exactly when it is not an inserted axis. -/
theorem mem_sKept {s si u : Shape} (d : ScatterDims s si u) (a : Fin s.rank) : a ∈ d.sKept ↔ a ∉ d.insertedWindowDims := by
  simp [ScatterDims.sKept, Shape.kept, List.mem_filter, List.mem_finRange]

variable {N E w : Nat} (wf : ScatterDims.WF ⟨1, ![N]⟩ ⟨2, ![E, 1]⟩ ⟨1, ![E]⟩ [] [0] [0] 1)

/-- On the operand's one axis the window starts at the position `idx[e, 0]`, read signed and not clamped. -/
theorem start0 (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted, so the window coordinate on it is `0`. -/
theorem window0 (e : Fin E) : (vecScatterDims N E wf).window (ix1 e) 0 = 0 := by
  unfold ScatterDims.window
  rw [dif_neg (show (0 : Fin 1) ∉ (vecScatterDims N E wf).sKept from fun h => ((mem_sKept _ _).mp h) (List.mem_singleton.mpr rfl))]

/-- Update entry `e` lands on operand entry `i` exactly when `e`'s position, read signed and not clamped, is `i`;
    a position outside `[0, N)` equals no `i`, so such an update lands nowhere. -/
theorem resultIdx?_vec_iff (idx : IVec ⟨2, ![E, 1]⟩ w) (e : Fin E) (i : Fin N) :
    (vecScatterDims N E wf).resultIdx? (ix1 e) idx = some (ix1 i) ↔ (idx (ix2 e 0)).toInt = (i.val : Int) := by
  have hs0 := start0 wf idx e
  have hw0 := window0 wf e
  unfold ScatterDims.resultIdx?
  split
  · rename_i h
    rw [Option.some.injEq]
    constructor
    · intro hf
      have h0 := congrArg (fun f => (f 0).val) hf
      simp only [hs0, hw0] at h0
      have hh := (h 0).1
      rw [hs0, hw0] at hh
      have : ((idx (ix2 e 0)).toInt + ((0 : Nat) : Int)).toNat = i.val := h0
      omega
    · intro hi
      funext a
      obtain rfl : a = 0 := Subsingleton.elim _ _
      refine Fin.ext ?_
      show ((vecScatterDims N E wf).start (ix1 e) idx 0 + ((vecScatterDims N E wf).window (ix1 e) 0 : Nat)).toNat = i.val
      rw [hs0, hw0, hi]; simp
  · rename_i h
    constructor
    · intro hf; exact absurd hf (by simp)
    · intro hi
      exfalso
      apply h
      intro a
      obtain rfl : a = 0 := Subsingleton.elim _ _
      show 0 ≤ (vecScatterDims N E wf).start (ix1 e) idx 0 + ((vecScatterDims N E wf).window (ix1 e) 0 : Nat)
        ∧ (vecScatterDims N E wf).start (ix1 e) idx 0 + ((vecScatterDims N E wf).window (ix1 e) 0 : Nat) < (N : Int)
      rw [hs0, hw0, hi]
      have := i.isLt
      constructor <;> omega

/-- THE ENTRY SCATTER-ADD READ AT `i` over the extended reals: the operand's entry plus the sum of the update entries
    whose position is `i`. -/
theorem scatterAdd_vec_apply (x : (⟨1, ![N]⟩ : Shape).Idx → EReal) (idx : IVec ⟨2, ![E, 1]⟩ w)
    (U : (⟨1, ![E]⟩ : Shape).Idx → EReal) (i : Fin N) :
    Host.scatterAdd (F := Ideal) (φ := .f32) (vecScatterDims N E wf) x idx U (ix1 i)
      = x (ix1 i) + ∑ e ∈ Finset.univ.filter (fun e : Fin E => (idx (ix2 e 0)).toInt = (i.val : Int)), U (ix1 e) := by
  show Ideal.hostScatterAdd (vecScatterDims N E wf) x idx U (ix1 i) = _
  unfold Ideal.hostScatterAdd
  congr 1
  refine Finset.sum_bij (fun u _ => (u 0 : Fin E)) ?_ ?_ ?_ ?_
  · intro u hu
    rw [Finset.mem_filter] at hu
    rw [eq_ix1 u] at hu
    exact Finset.mem_filter.mpr ⟨Finset.mem_univ _, (resultIdx?_vec_iff wf idx _ i).mp hu.2⟩
  · intro u _ u' _ h
    rw [eq_ix1 u, eq_ix1 u']
    have h' : (u 0 : Fin E) = (u' 0 : Fin E) := h
    rw [h']
  · intro e he
    rw [Finset.mem_filter] at he
    refine ⟨ix1 e, ?_, rfl⟩
    rw [Finset.mem_filter]
    exact ⟨Finset.mem_univ _, (resultIdx?_vec_iff wf idx e i).mpr he.2⟩
  · intro u _
    conv_lhs => rw [eq_ix1 u]
    rfl

end Scatter

end Cert.LibVecRows

end
-- ==== Proof.LibColumnVector.lean ====
/-
  A general lemma file: a column `[a, 1]` recast as a vector `[a]`, read at an index. The counterpart of standing
  a vector up as a column: both orders enumerate the same `a` entries, so entry `i` of the vector is entry
  `(i, 0)` of the column. General over the extent `a`.
-/
import Idealize.ShloMosaic.Lib.Pipeline.Value
import Idealize.ShloMosaic.Lib.ValueIdx

namespace Idealize.ShloMosaic.ColumnVector

open Idealize.ShloMosaic Idealize.ShloMosaic.ValueIdx

variable {α : Type}

/-- A column `[a, 1]` recast as a vector `[a]` reads, at `i`, the column's entry `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnVector
-- ==== Proof.TailRead.lean ====
/-
  The host operations after the kernel, read down to the mathematics.

  The operations form one chain.  From the edge list the first row gives each edge's target position and the second row,
  after a negative number is wrapped by the node count, its source position.  Each edge reads the column `z` at its
  source (signed, clamped into the node range), scales it by the edge weight, and the scaled values are added, starting
  from zero, into the slots of their targets (signed, not clamped: an edge whose target is out of range adds nothing).
  Each node's sum plus the bias goes through the sine; the squares are summed over all nodes, starting from zero, and
  the result is the square root of that sum.  Read one entry at a time: entry `r` of the scattered vector is the sum,
  over the edges `e` whose target is `r`, of `ew e · z (src e)`; when `z` is the contracted hidden row of every node
  this is the aggregate of the scalars, and the whole chain is the norm of the output layer applied to it.
-/
import proofs.«137217_j48069273977167_2_alg».proof.Proof.TailDef
import proofs.«137217_j48069273977167_2_alg».proof.Proof.Spec
import proofs.«137217_j48069273977167_2_alg».proof.Proof.LibVecRows
import proofs.«137217_j48069273977167_2_alg».proof.Proof.LibColumnVector
import Idealize.ShloMosaic.Lib.Pipeline.Value
import Idealize.ShloMosaic.Lib.ValueIdx
import Idealize.ShloMosaic.PureOps.Ideal.Laws
import Idealize.ShloMosaic.Lib.IdealHost

noncomputable section

open scoped BigOperators

namespace Cert.KernelIdeal.Tail

open Cert.KernelIdeal Idealize.ShloMosaic Idealize.ShloMosaic.ValueIdx

/-! ## Layout operations read at an entry -/

section Layout
variable {α : Type}

/-- A vector stood up as a column reads, at `(e, 0)`, the vector's entry `e`. -/
theorem column_apply {n : Nat} (h : (⟨1, ![n]⟩ : Shape).BroadcastsInDim ⟨2, ![n, 1]⟩ (![0] : Fin 1 → Fin 2))
    (v : (⟨1, ![n]⟩ : Shape).Idx → α) (e : Fin n) :
    broadcastInDim ⟨2, ![n, 1]⟩ ![0] h v (ix2 e (0 : Fin 1)) = v (ix1 e) :=
  broadcastInDim_apply _ h v _ _ (fun a => match a with
    | ⟨0, _⟩ => by
      show e.val = if n = 1 then 0 else e.val
      have := e.isLt
      split <;> omega)

/-- A one-row matrix recast as a vector reads, at `e`, the row's entry `(0, e)`: both orders list the same `n` entries. -/
theorem row_flat_apply {n : Nat} (h : (⟨2, ![1, n]⟩ : Shape).ShapeCasts ⟨1, ![n]⟩)
    (v : (⟨2, ![1, n]⟩ : Shape).Idx → α) (e : Fin n) :
    shapeCast ⟨1, ![n]⟩ v h (ix1 e) = v (ix2 (0 : Fin 1) e) :=
  shapeCast_apply v h _ _ (by
    rw [Shape.rowMajor_val_two, Shape.rowMajor_val_one]
    show 0 * n + e.val = e.val
    rw [Nat.zero_mul, Nat.zero_add])

/-- The first row of a two-row matrix, cut out as a one-row matrix, reads at `(0, e)` the matrix's entry `(0, e)`. -/
theorem row0_apply {n : Nat} (h : (⟨2, ![2, n]⟩ : Shape).Slices ![0, 0] ⟨2, ![1, n]⟩)
    (x : (⟨2, ![2, n]⟩ : Shape).Idx → α) (e : Fin n) :
    extractStridedSlice ⟨2, ![1, n]⟩ ![0, 0] x h (ix2 (0 : Fin 1) e) = x (ix2 (0 : Fin 2) e) :=
  extractStridedSlice_apply ![0, 0] x h _ _ (fun a => match a with
    | ⟨0, _⟩ => rfl
    | ⟨1, _⟩ => by show e.val = 0 + e.val; rw [Nat.zero_add])

/-- The second row of a two-row matrix, cut out as a one-row matrix, reads at `(0, e)` the matrix's entry `(1, e)`. -/
theorem row1_apply {n : Nat} (h : (⟨2, ![2, n]⟩ : Shape).Slices ![1, 0] ⟨2, ![1, n]⟩)
    (x : (⟨2, ![2, n]⟩ : Shape).Idx → α) (e : Fin n) :
    extractStridedSlice ⟨2, ![1, n]⟩ ![1, 0] x h (ix2 (0 : Fin 1) e) = x (ix2 (1 : Fin 2) e) :=
  extractStridedSlice_apply ![1, 0] x h _ _ (fun a => match a with
    | ⟨0, _⟩ => rfl
    | ⟨1, _⟩ => by show e.val = 0 + e.val; rw [Nat.zero_add])

/-- A one-entry vector has one index. -/
theorem idx1_eq (k : (⟨1, ![1]⟩ : Shape).Idx) : k = ix1 (0 : Fin 1) := by
  exact (eq_ix1 k).trans (congrArg ix1 (Subsingleton.elim (α := Fin 1) (k 0) 0))

/-- A one-entry vector recast as a scalar reads the vector's only entry. -/
theorem one_to_scalar_apply (h : (⟨1, ![1]⟩ : Shape).ShapeCasts ⟨0, ![]⟩) (v : (⟨1, ![1]⟩ : Shape).Idx → α)
    (j : (⟨0, ![]⟩ : Shape).Idx) : shapeCast ⟨0, ![]⟩ v h j = v (ix1 (0 : Fin 1)) := by
  unfold shapeCast
  exact congrArg v (idx1_eq _)

/-- A scalar recast as a one-entry vector reads the scalar. -/
theorem scalar_to_one_apply (h : (⟨0, ![]⟩ : Shape).ShapeCasts ⟨1, ![1]⟩) (v : (⟨0, ![]⟩ : Shape).Idx → α)
    (j : (⟨1, ![1]⟩ : Shape).Idx) : shapeCast ⟨1, ![1]⟩ v h j = v ix0 := by
  unfold shapeCast
  exact congrArg v (eq_ix0 _)

end Layout

/-! ## A sum over the indices of a vector is the sum over its positions -/

/-- The indices of a vector of length `n` are its `n` positions. -/
def idxEquiv1 {n : Nat} : (⟨1, ![n]⟩ : Shape).Idx ≃ Fin n where
  toFun i := i 0
  invFun a := ix1 a
  left_inv i := (eq_ix1 i).symm
  right_inv _ := rfl

theorem sum_idx1 {n : Nat} (f : (⟨1, ![n]⟩ : Shape).Idx → EReal) : ∑ i, f i = ∑ a : Fin n, f (ix1 a) := by
  rw [← Equiv.sum_comp (idxEquiv1 (n := n)).symm f]
  rfl

/-- The sum of all entries of a vector, started from the zero constant, is the sum over the positions. -/
theorem sum_all_apply {n : Nat} (h' : (⟨1, ![n]⟩ : Shape).ReducesTo [0] ⟨0, ![]⟩) (hu : 0 < (⟨0, ![]⟩ : Shape).numel)
    (x : FVec Ideal ⟨1, ![n]⟩ .f32) (j : (⟨0, ![]⟩ : Shape).Idx) :
    Host.reduceAdd (F := Ideal) x (constant (F := Ideal) ⟨0, ![]⟩ .f32 0x00000000#32) h' hu j = ∑ r : Fin n, x (ix1 r) := by
  refine (hostReduceAdd_apply x _ h' hu j).trans ?_
  rw [Ideal.hostReduceAdd_total h' (fun b => b.elim0)]
  show Ideal.ofBits .f32 0x00000000#32 + _ = _
  rw [Ideal.ofBits_zero_f32, zero_add, sum_idx1]

/-- The host's sine of an array reads, at an index, the sine of the entry. -/
theorem hostSin_apply {s : Shape} (x : FVec Ideal s .f32) (i : s.Idx) : Host.sin (F := Ideal) x i = Ideal.sin (x i) := rfl

/-- The host's square root of an array reads, at an index, the square root of the entry. -/
theorem hostSqrt_apply {s : Shape} (x : FVec Ideal s .f32) (i : s.Idx) : Host.sqrt (F := Ideal) x i = Ideal.sqrt (x i) := rfl

/-! ## The stages -/

variable [Facts]
open Facts₀ Facts

/-- The edges' target words, as a column: the first row of the edge list. -/
def tgtCol (ei : IVec S2x800000 32) : IVec S800000x1 32 :=
  broadcastInDim S800000x1 ![0] bcast_S800000_S800000x1_0
    (shapeCast S800000 (extractStridedSlice S1x800000 ![0, 0] ei slices_S2x800000_S1x800000_0_0) shapeCasts_S1x800000_S800000)

theorem tgtCol_apply (ei : IVec S2x800000 32) (e : Fin 800000) : tgtCol ei (ix2 e (0 : Fin 1)) = ei (ix2 (0 : Fin 2) e) := by
  unfold tgtCol
  refine (column_apply _ _ e).trans ?_
  refine (row_flat_apply _ _ e).trans ?_
  exact row0_apply _ _ e

/-- The second row of the edge list, as a vector. -/
def srcRow (ei : IVec S2x800000 32) : IVec S800000 32 :=
  shapeCast S800000 (extractStridedSlice S1x800000 ![1, 0] ei slices_S2x800000_S1x800000_1_0) shapeCasts_S1x800000_S800000

theorem srcRow_apply (ei : IVec S2x800000 32) (e : Fin 800000) : srcRow ei (ix1 e) = ei (ix2 (1 : Fin 2) e) := by
  unfold srcRow
  refine (row_flat_apply _ _ e).trans ?_
  exact row1_apply _ _ e

/-- The edges' source words, as a column: the second row of the edge list with a negative number wrapped by the
    node count. -/
def srcCol (ei : IVec S2x800000 32) : IVec S800000x1 32 :=
  broadcastInDim S800000x1 ![0] bcast_S800000_S800000x1_0
    (select (cmpi .slt (srcRow ei) (broadcastInDim S800000 ![] bcast_S_S800000 (constantI S_ 32 0#32)))
      (addi (srcRow ei) (broadcastInDim S800000 ![] bcast_S_S800000 (constantI S_ 32 50000#32))) (srcRow ei))

theorem srcCol_apply (ei : IVec S2x800000 32) (e : Fin 800000) :
    srcCol ei (ix2 e (0 : Fin 1))
      = Scalar.select (IntOp.cmpi .slt (ei (ix2 (1 : Fin 2) e)) 0#32) (IntOp.addi (ei (ix2 (1 : Fin 2) e)) 50000#32) (ei (ix2 (1 : Fin 2) e)) := by
  unfold srcCol
  refine (column_apply _ _ e).trans ?_
  show Scalar.select (IntOp.cmpi .slt (srcRow ei (ix1 e)) (broadcastInDim S800000 ![] bcast_S_S800000 (constantI S_ 32 0#32) (ix1 e)))
      (IntOp.addi (srcRow ei (ix1 e)) (broadcastInDim S800000 ![] bcast_S_S800000 (constantI S_ 32 50000#32) (ix1 e))) (srcRow ei (ix1 e)) = _
  rw [broadcastInDim_scalar_apply, broadcastInDim_scalar_apply, srcRow_apply]
  rfl

/-- The value each edge adds: the edge weight times the column at the edge's source. -/
def upd (z : FVec Ideal S50000x1 .f32) (ei : IVec S2x800000 32) (ew : FVec Ideal S800000 .f32) : FVec Ideal S800000 .f32 :=
  mulf ew (Host.gather gather_S50000_S800000x1_S800000_n_0_n_n_0_1_1 (shapeCast S50000 z shapeCasts_S50000x1_S50000) (srcCol ei))

theorem upd_apply (z : FVec Ideal S50000x1 .f32) (ei : IVec S2x800000 32) (ew : FVec Ideal S800000 .f32) (e : Fin 800000) :
    upd z ei ew (ix1 e) = ew (ix1 e) * z (ix2 (Cert.LibVecRows.gatherPos (N := 50000) (by omega) (srcCol ei) e) (0 : Fin 1)) := by
  show ew (ix1 e) * Host.gather (Cert.LibVecRows.vecGatherDims 50000 800000 gather_S50000_S800000x1_S800000_n_0_n_n_0_1_1_wf)
      (shapeCast S50000 z shapeCasts_S50000x1_S50000) (srcCol ei) (ix1 e) = _
  rw [Cert.LibVecRows.gather_vec_apply (by omega), ColumnVector.shapeCast_a1_a_apply]

/-- The per-node sums: the edges' values added, from zero, into their targets' slots. -/
def acc (z : FVec Ideal S50000x1 .f32) (ei : IVec S2x800000 32) (ew : FVec Ideal S800000 .f32) : FVec Ideal S50000 .f32 :=
  Host.scatterAdd (F := Ideal) scatter_S50000_S800000x1_S800000_n_0_0_1
    (broadcastInDim S50000 ![] bcast_S_S50000 (constant (F := Ideal) S_ .f32 0x00000000#32)) (tgtCol ei) (upd z ei ew)

theorem acc_apply (z : FVec Ideal S50000x1 .f32) (ei : IVec S2x800000 32) (ew : FVec Ideal S800000 .f32) (r : Fin 50000) :
    acc z ei ew (ix1 r)
      = ∑ e ∈ Finset.univ.filter (fun e : Fin 800000 => (ei (ix2 (0 : Fin 2) e)).toInt = (r.val : Int)), upd z ei ew (ix1 e) := by
  show Host.scatterAdd (F := Ideal) (φ := .f32) (Cert.LibVecRows.vecScatterDims 50000 800000 scatter_S50000_S800000x1_S800000_n_0_0_1_wf)
      (broadcastInDim S50000 ![] bcast_S_S50000 (constant (F := Ideal) S_ .f32 0x00000000#32)) (tgtCol ei) (upd z ei ew) (ix1 r) = _
  rw [Cert.LibVecRows.scatterAdd_vec_apply, broadcastInDim_scalar_apply]
  show Ideal.ofBits .f32 0x00000000#32 + _ = _
  rw [Ideal.ofBits_zero_f32, zero_add]
  exact Finset.sum_congr (Finset.filter_congr fun e _ => by rw [tgtCol_apply]) fun _ _ => rfl

/-- The output layer: the sine of each node's sum plus the bias. -/
def out (z : FVec Ideal S50000x1 .f32) (b2 : FVec Ideal S1 .f32) (ei : IVec S2x800000 32) (ew : FVec Ideal S800000 .f32) :
    FVec Ideal S50000 .f32 :=
  Host.sin (F := Ideal) (addf (acc z ei ew) (broadcastInDim S50000 ![] bcast_S_S50000 (shapeCast S_ b2 shapeCasts_S1_S_)))

theorem out_apply (z : FVec Ideal S50000x1 .f32) (b2 : FVec Ideal S1 .f32) (ei : IVec S2x800000 32) (ew : FVec Ideal S800000 .f32)
    (r : Fin 50000) : out z b2 ei ew (ix1 r) = Ideal.sin (acc z ei ew (ix1 r) + b2 (ix1 (0 : Fin 1))) := by
  unfold out
  rw [hostSin_apply, addf_apply, broadcastInDim_scalar_apply, one_to_scalar_apply]

/-- The chain of operations, written with the stages named. -/
theorem tail_unfold (z : FVec Ideal S50000x1 .f32) (b2 : FVec Ideal S1 .f32) (ei : IVec S2x800000 32) (ew : FVec Ideal S800000 .f32) :
    tail z b2 ei ew
      = shapeCast S1 (Host.sqrt (F := Ideal) (Host.reduceAdd (F := Ideal) (mulf (out z b2 ei ew) (out z b2 ei ew))
          (constant (F := Ideal) S_ .f32 0x00000000#32) reducesTo_S50000_S_d0 h_S_)) shapeCasts_S_S1 := rfl

/-! ## The chain is the specification -/

/-- The position the gather reads for edge `e` is the specification's source node. -/
theorem gatherPos_eq_src (I : Cert.Spec.Inputs) (e : Fin 800000) :
    Cert.LibVecRows.gatherPos (N := 50000) (by omega) (srcCol I.ei) e = Cert.Spec.src I e := by
  refine Fin.ext ?_
  show min (srcCol I.ei (ix2 e (0 : Fin 1))).toInt.toNat (50000 - 1) = min (Cert.Spec.srcWord I e).toInt.toNat (50000 - 1)
  rw [srcCol_apply]
  rfl

/-- When `z` is every node's contracted hidden row, node `r`'s sum is the aggregate of the scalars over the edges
    into `r`. -/
theorem acc_eq_agg (I : Cert.Spec.Inputs) (z : FVec Ideal S50000x1 .f32)
    (hz : ∀ n : Fin 50000, z (ix2 n (0 : Fin 1)) = Cert.Spec.proj I n) (r : Fin 50000) :
    acc z I.ei I.ew (ix1 r) = Cert.Spec.aggScalar I r := by
  rw [acc_apply]
  unfold Cert.Spec.aggScalar Cert.Spec.into
  refine Finset.sum_congr rfl fun e _ => ?_
  rw [upd_apply, hz, gatherPos_eq_src]

/-- THE HOST OPERATIONS AFTER THE KERNEL ARE THE SPECIFICATION: when the kernel's column is every node's contracted
    hidden row, the result is the norm of the output layer applied to the aggregate of the scalars. -/
theorem tail_eq (I : Cert.Spec.Inputs) (z : FVec Ideal S50000x1 .f32)
    (hz : ∀ n : Fin 50000, z (ix2 n (0 : Fin 1)) = Cert.Spec.proj I n) :
    tail z I.b2 I.ei I.ew = fun _ => Cert.Spec.normOf I (Cert.Spec.aggScalar I) := by
  funext j
  rw [tail_unfold]
  refine (scalar_to_one_apply _ _ j).trans ?_
  rw [hostSqrt_apply, sum_all_apply]
  unfold Cert.Spec.normOf
  refine congrArg Ideal.sqrt (Finset.sum_congr rfl fun r _ => ?_)
  rw [mulf_apply, out_apply, acc_eq_agg I z hz r]

end Cert.KernelIdeal.Tail

end
-- ==== Proof.KernelRun.lean ====
/-
  The idealized kernel program's run, read as a value.

  Before the kernel the program transposes the first layer's weights and stands the first layer's bias up as a row;
  with those, row n of the column the kernel writes is the spec's  proj n  (the node's hidden row contracted with the
  second layer's weights). After the kernel the host operations turn that column, the edge list, the edge weights and
  the second layer's bias into the norm of the output over the nodes: the spec's  normOf (aggScalar).
-/
import proofs.«137217_j48069273977167_2_alg».proof.Proof.KernelArray
import proofs.«137217_j48069273977167_2_alg».proof.Proof.TailDef
import proofs.«137217_j48069273977167_2_alg».proof.Proof.TailRead
import proofs.«137217_j48069273977167_2_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

open scoped BigOperators

namespace Cert.KernelIdeal.Glue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat Cfg Window)

variable (m : (ℓ : Loc nD τ sig) → Buf (Elt Ideal) ℓ) (ρ : Dev nD → PrngReg)

/-- The program's argument arrays on core `c`, as the spec's inputs. -/
@[reducible] def inputs (c : Dev nD) : Cert.Spec.Inputs :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6)⟩

/-! ## The host operations before the kernel -/

/-- The kernel finds the first layer's weights transposed. -/
theorem V_main_v0 (c : Dev nD) : (V m c main_v0 : S256x128.Idx → EReal)
    = transpose S256x128 [1, 0] (m ((c : Thread nD τ).loc main_arg1)) transposes_S128x256_S256x128_1_0 := by
  show StableHlo.after hostOps0 (fun b => m (c, b)) (Proc.devRef .tc main_v0) = _
  after_results

/-- The kernel finds the first layer's bias as a one-row matrix. -/
theorem V_main_v1 (c : Dev nD) : (V m c main_v1 : S1x128.Idx → EReal)
    = shapeCast S1x128 (m ((c : Thread nD τ).loc main_arg2)) shapeCasts_S128_S1x128 := by
  show StableHlo.after hostOps0 (fun b => m (c, b)) (Proc.devRef .tc main_v1) = _
  after_results
  rfl

/-- Row `n` of the kernel's column is the spec's contracted hidden row of node `n`. -/
theorem zrow_eq_proj (c : Dev nD) (n : Fin 50000) :
    Arr.zrow (V m c main_arg0) (V m c main_v0) (V m c main_v1) (V m c main_arg3) n = Cert.Spec.proj (inputs m c) n := by
  rw [V_main_arg0, V_main_v0, V_main_v1, V_main_arg3]
  unfold Arr.zrow Cert.Spec.proj Cert.Spec.hid
  refine Finset.sum_congr rfl fun d _ => ?_
  refine congrArg₂ (· * ·) (congrArg Ideal.sin (congrArg₂ (· + ·) (Finset.sum_congr rfl fun k _ =>
    congrArg₂ (· * ·) rfl ?_) ?_)) rfl
  · exact transpose_apply [1, 0] _ transposes_S128x256_S256x128_1_0 (ix2 k d) (ix2 d k) (fun b => match b with
      | ⟨0, _⟩ => rfl
      | ⟨1, _⟩ => rfl)
  · exact shapeCast_a_1a_apply _ shapeCasts_S128_S1x128 0 d

/-- The kernel's column, at row `n`, is the spec's contracted hidden row of node `n`. -/
theorem zcol_eq_proj (c : Dev nD) (n : Fin 50000) :
    Arr.zcol (V m c main_arg0) (V m c main_v0) (V m c main_v1) (V m c main_arg3) (ix2 n (0 : Fin 1))
      = Cert.Spec.proj (inputs m c) n :=
  (Arr.zcol_of_row _ _ _ _ (ix2 n (0 : Fin 1)) n rfl).trans (zrow_eq_proj m c n)

/-! ## The host operations after the kernel -/

/-- The buffers as the operations after the kernel find them: the kernel's arrays as the run left them, every other
    buffer as it was when the kernel was entered. -/
abbrev atTail (c : Dev nD) : Valuation τ sig (Elt Ideal) :=
  Pipeline.withArrays (cfgs 0).spec c (V0 m c) fun w => (dats m 0 c).arrAt w (cfgs 0).N

/-- The program's result buffer after the run is the tail's function of the buffers it reads. -/
theorem tail_after (c : Dev nD) :
    Pipeline.afterTail₀ cfgs (dats m) 0 (V0 m) [hostOps1] c main_v26
      = Tail.tail (atTail m c (Proc.devRef .tc main_v2)) (atTail m c (Proc.devRef .tc main_arg4))
          (atTail m c (Proc.devRef .tc main_arg5)) (atTail m c (Proc.devRef .tc main_arg6)) := by
  unfold Pipeline.afterTail₀
  show StableHlo.after hostOps1 (atTail m c) (Proc.devRef .tc main_v26) = _
  after_results_simp
  rfl

/-- The tail finds the kernel's output array holding the column. -/
theorem atTail_v2 (c : Dev nD) : atTail m c (Proc.devRef .tc main_v2)
    = Arr.zcol (V m c main_arg0) (V m c main_v0) (V m c main_v1) (V m c main_arg3) :=
  (Pipeline.withArrays_arr spec0 launch0.win.arr_inj c _ _ 4).trans (Arr.final m c)

/-- The tail finds the argument arrays it reads as launched: no window of the kernel writes them. -/
theorem atTail_arg4 (c : Dev nD) : atTail m c (Proc.devRef .tc main_arg4) = m ((c : Thread nD τ).loc main_arg4) :=
  (Pipeline.withArrays_of_ne _ c (V0 m c) _ main_arg4 (by exact (by decide : ∀ w, Pipeline.arrRef spec0 w ≠ main_arg4))).trans
    (V_main_arg4 m c)
theorem atTail_arg5 (c : Dev nD) : atTail m c (Proc.devRef .tc main_arg5) = m ((c : Thread nD τ).loc main_arg5) :=
  (Pipeline.withArrays_of_ne _ c (V0 m c) _ main_arg5 (by exact (by decide : ∀ w, Pipeline.arrRef spec0 w ≠ main_arg5))).trans
    (V_main_arg5 m c)
theorem atTail_arg6 (c : Dev nD) : atTail m c (Proc.devRef .tc main_arg6) = m ((c : Thread nD τ).loc main_arg6) :=
  (Pipeline.withArrays_of_ne _ c (V0 m c) _ main_arg6 (by exact (by decide : ∀ w, Pipeline.arrRef spec0 w ≠ main_arg6))).trans
    (V_main_arg6 m c)

/-- THE RESULT: the norm over the nodes of the output layer applied to the aggregate of contracted hidden rows. -/
theorem result_eq (c : Dev nD) :
    Pipeline.afterTail₀ cfgs (dats m) 0 (V0 m) [hostOps1] c main_v26
      = fun _ => Cert.Spec.normOf (inputs m c) (Cert.Spec.aggScalar (inputs m c)) := by
  rw [tail_after, atTail_v2, atTail_arg4, atTail_arg5, atTail_arg6]
  exact Tail.tail_eq (inputs m c) _ (zcol_eq_proj m c)

/-! ## The run -/

/-- Every weakly fair execution of the idealized kernel program terminates with its result at the spec's norm of
    the scalar aggregate, and its argument arrays unchanged. -/
theorem run : θ_run defs (onTc (τ := τ) (main (F := Ideal))) ⟨m, fun _ => 0, ρ⟩ (fun r => ∀ c : Dev nD,
      r.2.mem ((c.tc : Thread nD τ).loc main_v26) = (fun _ => Cert.Spec.normOf (inputs m c) (Cert.Spec.aggScalar (inputs m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v26 (Pipeline.mem_restRefs_of main_v26 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Glue

end
-- ==== Proof.lean ====
/-
  A graph layer's output norm computed two ways agrees over the extended reals when the float inputs are finite.

  Both programs compute, for 50000 nodes with 256 input features and 800000 weighted edges,
      hid n d = sin (Σ_k x(n,k) · W1(d,k) + b1(d)),         out r = sin (agg r + b2),        result = sqrt (Σ_r out r · out r),
  where  agg r  gathers, over the edges into node r, the edge weight times the source node's hidden row, contracted with
  the second layer's weight row W2. The kernel program contracts each node's hidden row with W2 first (inside its row
  tiles: ten tiles of 5000 nodes, one matrix product and one lane sum each) and lets the host operations after it
  aggregate the resulting scalars over the edges; the reference aggregates the 128-wide hidden rows over the edges and
  contracts the aggregate. The two aggregates are the same finite double sum in a different order of summation,
      Σ_e w_e · (Σ_d h(src e, d) · W2 d)  =  Σ_d (Σ_e w_e · h(src e, d)) · W2 d,
  which holds for real numbers; the precondition makes every weight, every W2 entry and every argument of the sine a real
  number, and the sine of a real is a real. Source and target node numbers are read off the edge list identically by
  both programs (negative source numbers wrapped by the node count and then clamped by the fetch; targets read signed,
  out-of-range targets dropped), so no condition on the edge list is needed.

  The modules: Spec (the common mathematics) and Law (the exchange of the two sums); Body (the kernel tile's stored
  column at a row), KernelArray (the ten tiles cover the column), TailDef / TailRead (the host operations after the
  kernel, read down to the spec), KernelRun (the kernel program's run as a value); RefRead (the reference's run as a
  value); Finite (the precondition read back: every float input is a real number); and general layout and
  gather / scatter lemmas in the Lib files.
-/
import proofs.«137217_j48069273977167_2_alg».proof.Defs
import proofs.«137217_j48069273977167_2_alg».proof.Proof.Gen.Kernel
import proofs.«137217_j48069273977167_2_alg».proof.Proof.Gen.Kernel.Skeleton
import proofs.«137217_j48069273977167_2_alg».proof.Proof.Gen.Kernel.Launch
import proofs.«137217_j48069273977167_2_alg».proof.Proof.Gen.Kernel.Points
import proofs.«137217_j48069273977167_2_alg».proof.Proof.Gen.Kernel.Frame
import proofs.«137217_j48069273977167_2_alg».proof.Proof.Gen.KernelIdeal
import proofs.«137217_j48069273977167_2_alg».proof.Proof.Gen.KernelIdeal.Skeleton
import proofs.«137217_j48069273977167_2_alg».proof.Proof.Gen.KernelIdeal.Launch
import proofs.«137217_j48069273977167_2_alg».proof.Proof.Gen.KernelIdeal.Points
import proofs.«137217_j48069273977167_2_alg».proof.Proof.Gen.KernelIdeal.Frame
import proofs.«137217_j48069273977167_2_alg».proof.Proof.Gen.ReferenceIdeal
import proofs.«137217_j48069273977167_2_alg».proof.Proof.Gen.Pre_finite_inputs
import proofs.«137217_j48069273977167_2_alg».proof.Proof.Gen.ReferenceIdeal.Run
import proofs.«137217_j48069273977167_2_alg».proof.Proof.Gen.ReferenceIdeal.Read
import proofs.«137217_j48069273977167_2_alg».proof.Proof.Spec
import proofs.«137217_j48069273977167_2_alg».proof.Proof.Law
import proofs.«137217_j48069273977167_2_alg».proof.Proof.Finite
import proofs.«137217_j48069273977167_2_alg».proof.Proof.RefRead
import proofs.«137217_j48069273977167_2_alg».proof.Proof.KernelRun
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From arguments that agree, the kernel program ends at the norm of the scalar aggregate and the reference at the norm
    of the row aggregate; with finite inputs the two aggregates are equal node by node. -/
theorem algebraic : Cert.algebraic_KernelIdeal_ReferenceIdeal := by
  intro m ρ m' ρ' hpre hagree
  refine ⟨fun c => fun _ => Cert.Spec.normOf (Cert.KernelIdeal.Glue.inputs m c)
      (Cert.Spec.aggScalar (Cert.KernelIdeal.Glue.inputs m c)), Cert.KernelIdeal.Glue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  obtain ⟨f0, f1, f2, f3, f4, f6⟩ := Cert.Finite.inputs_real _ _ _ _ _ _ _ (hpre c)
  rw [Cert.ReferenceIdeal.Read.val_main_v31_eq, Cert.ReferenceIdeal.RefValue.ref_eq, h0, h1, h2, h3, h4, h5, h6]
  exact funext fun _ => (Cert.Spec.normOf_agg (Cert.KernelIdeal.Glue.inputs m c) ⟨f0, f1, f2, f3, f6⟩).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
